-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S4096x1 : Shape := ⟨2, ![4096, 1]⟩
abbrev S8192x512 : Shape := ⟨2, ![8192, 512]⟩
abbrev S512x256 : Shape := ⟨2, ![512, 256]⟩
abbrev S256 : Shape := ⟨1, ![256]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg0 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x8192 .f32) (main_arg1 : IVec S4096x1 32) (main_arg2 : FVec F S8192x512 .f32) (main_arg3 : FVec F S512x256 .f32) (main_arg4 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_v13 main_v16
-- ==== Kernel.lean ====
abbrev S8192x8192 : Shape := ⟨2, ![8192, 8192]⟩
abbrev S4096x1 : Shape := ⟨2, ![4096, 1]⟩
abbrev S8192x512 : Shape := ⟨2, ![8192, 512]⟩
abbrev S512x256 : Shape := ⟨2, ![512, 256]⟩
abbrev S256 : Shape := ⟨1, ![256]⟩
abbrev S8192x1 : Shape := ⟨2, ![8192, 1]⟩
abbrev S8192x256 : Shape := ⟨2, ![8192, 256]⟩
abbrev S1024x2048 : Shape := ⟨2, ![1024, 2048]⟩
abbrev S1024x512 : Shape := ⟨2, ![1024, 512]⟩
abbrev S1024x1 : Shape := ⟨2, ![1024, 1]⟩
abbrev S1024x256 : Shape := ⟨2, ![1024, 256]⟩
abbrev S1024 : Shape := ⟨1, ![1024]⟩
abbrev S2048x256 : Shape := ⟨2, ![2048, 256]⟩
abbrev S4096 : Shape := ⟨1, ![4096]⟩
abbrev S_ : Shape := ⟨0, ![]⟩
abbrev S4096x256 : Shape := ⟨2, ![4096, 256]⟩
abbrev S1x256 : Shape := ⟨2, ![1, 256]⟩

abbrev nBuf : Space → Nat
  | .hbm => 24
  | .vmem => 21
  | .smem => 0
  | _ => 0

abbrev bufTy : (tb : Table) → Fin (tcTables nBuf tb) → BufTy
  | .hbm, ⟨0, _⟩ => ⟨S8192x8192, .f32⟩
  | .hbm, ⟨1, _⟩ => ⟨S4096x1, .i32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S8192x1, .f32⟩
  | .hbm, ⟨6, _⟩ => ⟨S8192x256, .bf16⟩
  | .hbm, ⟨7, _⟩ => ⟨S8192x256, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S512x256, .f32⟩
  | .local _ .vmem, ⟨5, _⟩ => ⟨S1024x1, .f32⟩
  | .local _ .vmem, ⟨6, _⟩ => ⟨S1024x1, .f32⟩
  | .local _ .vmem, ⟨7, _⟩ => ⟨S1024x256, .bf16⟩
  | .local _ .vmem, ⟨8, _⟩ => ⟨S1024x256, .bf16⟩
  | .local _ .vmem, ⟨9, _⟩ => ⟨S1024x1, .f32⟩
  | .local _ .vmem, ⟨10, _⟩ => ⟨S1024x2048, .f32⟩
  | .local _ .vmem, ⟨11, _⟩ => ⟨S1024x2048, .f32⟩
  | .local _ .vmem, ⟨12, _⟩ => ⟨S2048x256, .bf16⟩
  | .local _ .vmem, ⟨13, _⟩ => ⟨S2048x256, .bf16⟩
  | .local _ .vmem, ⟨14, _⟩ => ⟨S1024x256, .bf16⟩
  | .local _ .vmem, ⟨15, _⟩ => ⟨S1024x256, .bf16⟩
  | .local _ .vmem, ⟨16, _⟩ => ⟨S1024x1, .f32⟩
  | .local _ .vmem, ⟨17, _⟩ => ⟨S1024x1, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  gather_S8192x256_S4096x1_S4096x256_1_0_n_n_0_1_1256_wf : GatherDims.WF S8192x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def gather_S8192x256_S4096x1_S4096x256_1_0_n_n_0_1_1256 : GatherDims S8192x256 S4096x1 S4096x256 where
  offsetDims := [1]
  collapsedSliceDims := [0]
  operandBatchingDims := []
  startIndicesBatchingDims := []
  startIndexMap := [0]
  indexVectorDim := 1
  sliceSizes := ![1, 256]
  wf := gather_S8192x256_S4096x1_S4096x256_1_0_n_n_0_1_1256_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S4096x1 : Shape := ⟨2, ![4096, 1]⟩
abbrev S8192x512 : Shape := ⟨2, ![8192, 512]⟩
abbrev S512x256 : Shape := ⟨2, ![512, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S4096 : Shape := ⟨1, ![4096]⟩
abbrev S4096x256 : Shape := ⟨2, ![4096, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4096x1, .i32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S8192x8192, .i32⟩
  | .hbm, ⟨6, _⟩ => ⟨S8192x8192, .i32⟩
  | .hbm, ⟨7, _⟩ => ⟨S_, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x256, .f32⟩
  | .hbm, ⟨26, _⟩ => ⟨S8192x256, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  gather_S8192x256_S4096x1_S4096x256_1_0_n_n_0_1_1256_wf : GatherDims.WF S8192x256 S4096x1 S4096x256 [1] [0] [] [0] [] 1 ![1, 256]

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def gather_S8192x256_S4096x1_S4096x256_1_0_n_n_0_1_1256 : GatherDims S8192x256 S4096x1 S4096x256 where
  offsetDims := [1]
  collapsedSliceDims := [0]
  operandBatchingDims := []
  startIndicesBatchingDims := []
  startIndexMap := [0]
  indexVectorDim := 1
  sliceSizes := ![1, 256]
  wf := gather_S8192x256_S4096x1_S4096x256_1_0_n_n_0_1_1256_wf

class Facts : Prop extends Facts₀ where

variable [Facts]
-- ==== Proof.K.R0Runs.lean ====
import proofs.«145517_j41455024340992_2_alg».proof.Proof.Gen.Kernel.Launch
import proofs.«145517_j41455024340992_2_alg».proof.Proof.Gen.Kernel.Skeleton
import proofs.«145517_j41455024340992_2_alg».proof.Proof.Gen.Kernel.Points
import proofs.«145517_j41455024340992_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the degree accumulator and the scaled projection, one grid point at a time

The body branches on the inner grid coordinate alone: at its first value the accumulator is zeroed before the block's
row sums are added, at its last value the accumulated degree is turned into the inverse square root and the projected
rows are scaled by it. Three cases are met: first column block (A), a middle one (B), the last one (C). -/

/-- The accumulator is zeroed: the inner coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The outputs are written: the inner coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each output window, through which its contents are stated. -/
abbrev VO0_3 : View sig .tc .vmem S1024x1 .f32 := (Memref.whole cc0_stg3_0 : Memref sig .tc .vmem S1024x1 .f32).view
abbrev VO0_4 : View sig .tc .vmem S1024x256 .bf16 := (Memref.whole cc0_stg4_0 : Memref sig .tc .vmem S1024x256 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1 .f32 := Memref.whole cc0_scratch0
abbrev VS0 : View sig .tc .vmem S1024x1 .f32 := scM0.view

set_option maxHeartbeats 1000000 in
/-- First column block: the accumulator, at anything, is zeroed and the block's row sums added. -/
noncomputable def kernelRun0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i)
    (x0 : Vec F S1024x2048 .f32) :
    { LS0 : List (View.Piece (Elt F) S1024x1 .f32) //
      ∀ (E : Set ℕ) (K : PUnit → sProp 𝕄),
        iprop(owns (c : Thread nD τ) arg2 fullShare x0 ∗ (∃ d, owns (c : Thread nD τ) arg7 fullShare d)
            ∗ (iprop(owns (c : Thread nD τ) arg2 fullShare x0
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, fun E K => ?run⟩
  case run =>
    simp only [cc0__rowsum_y_kernel_eq_skeleton]; unfold cc0__rowsum_y_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- A middle column block: the block's row sums are added to the accumulator. -/
noncomputable def kernelRun0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i)
    (x0 : Vec F S1024x2048 .f32) (xs0 : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg7 fullShare xs0
            ∗ (iprop(owns (c : Thread nD τ) arg2 fullShare x0
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, fun E K => ?run⟩
  case run =>
    simp only [cc0__rowsum_y_kernel_eq_skeleton]; unfold cc0__rowsum_y_kernel_skel
    unfold owns
    iintro ⟨⟨%f0, %hf0, H0⟩, ⟨%fs0, %hfs0, HS0⟩, Hk⟩
    obtain rfl := harg2.eq_unread hf0; obtain rfl := harg7.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- The last column block: the row sums are added, then both outputs are written from the accumulated degree. -/
noncomputable def kernelRun0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i)
    (x0 : Vec F S1024x2048 .f32) (x1 : Vec F S1024x512 .f32) (x2 : Vec F S512x256 .f32) (xs0 : Vec F S1024x1 .f32) :
    Σ' (L3 : List (View.Piece (Elt F) S1024x1 .f32)) (L4 : List (View.Piece (Elt F) S1024x256 .bf16)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, ?_, ?_, fun E K => ?run⟩
  case run =>
    simp only [cc0__rowsum_y_kernel_eq_skeleton]; unfold cc0__rowsum_y_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Gen

end
-- ==== Proof.K.R0Data.lean ====
import proofs.«145517_j41455024340992_2_alg».proof.Proof.Gen.Kernel.Launch
import proofs.«145517_j41455024340992_2_alg».proof.Proof.Gen.Kernel.Skeleton
import proofs.«145517_j41455024340992_2_alg».proof.Proof.Gen.Kernel.Points
import proofs.«145517_j41455024340992_2_alg».proof.Proof.Gen.Kernel.Regions
import proofs.«145517_j41455024340992_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, point by point: what the accumulator and the two outputs hold, and the body's obligation

At the region's entry the unscoped buffers hold `V`. The adjacency, feature and weight windows hand the body their
blocks; the accumulator after point `n` is the case's run on the block at `n` and, off the first column block, on
what point `n - 1` left; the outputs are written at the last column block of each row block. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

theorem scover0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i) (x0 : Vec F S1024x2048 .f32) (y : S1024x1.Idx) :
    ∃ pc ∈ (kernelRun0_A c i arg2 harg2 arg3 harg3 arg4 harg4 arg5 harg5 arg6 harg6 arg7 harg7 hc0 hc1 x0).1, y ∈ pc.1.set :=
  View.cover_of_tiledL (kernelRun0_A c i arg2 harg2 arg3 harg3 arg4 harg4 arg5 harg5 arg6 harg6 arg7 harg7 hc0 hc1 x0).1 S1024x1.size (by sl_kernel_rfl) y
/-- The accumulator after a first column block. -/
def sout0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i) (x0 : Vec F S1024x2048 .f32) : Vec F S1024x1 .f32 :=
  VS0.read (Elt F) (VS0.writes (Elt F) VS0.junk (kernelRun0_A c i arg2 harg2 arg3 harg3 arg4 harg4 arg5 harg5 arg6 harg6 arg7 harg7 hc0 hc1 x0).1)

theorem scover0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i) (x0 : Vec F S1024x2048 .f32) (xs0 : Vec F S1024x1 .f32) (y : S1024x1.Idx) :
    ∃ pc ∈ (kernelRun0_B c i arg2 harg2 arg3 harg3 arg4 harg4 arg5 harg5 arg6 harg6 arg7 harg7 hc0 hc1 x0 xs0).1, y ∈ pc.1.set :=
  View.cover_of_tiledL (kernelRun0_B c i arg2 harg2 arg3 harg3 arg4 harg4 arg5 harg5 arg6 harg6 arg7 harg7 hc0 hc1 x0 xs0).1 S1024x1.size (by sl_kernel_rfl) y
/-- The accumulator after a middle column block. -/
def sout0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i) (x0 : Vec F S1024x2048 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 hc1 x0 xs0).1)

theorem cover0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1024x1.size (by sl_kernel_rfl) y
theorem cover0_C_4 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1024x256.size (by sl_kernel_rfl) y
theorem scover0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1024x1.size (by sl_kernel_rfl) y
/-- The inverse-square-root column, the scaled projection and the accumulator after a last column block. -/
def out0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
def out0_C_4 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x256 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
def sout0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x1 .f32 :=
  VS0.read (Elt F) (VS0.writes (Elt F) VS0.junk (kernelRun0_C c i arg2 harg2 arg3 harg3 arg4 harg4 arg5 harg5 arg6 harg6 arg7 harg7 hc0 hc1 x0 x1 x2 xs0).2.2.1)

/-- What an output window that the point does not store into is said to hold: nothing consults it. -/
def idle0_3 : Vec F S1024x1 .f32 := VO0_3.read (Elt F) (VO0_3.writes (Elt F) VO0_3.junk [])
def idle0_4 : Vec F S1024x256 .bf16 := VO0_4.read (Elt F) (VO0_4.writes (Elt F) VO0_4.junk [])

/-! ## The accumulation -/

/-- After the body at position `n`: the two outputs' staging buffers and the accumulator. -/
def outsAt0 (c : Dev nD) : (n : ℕ) → n < cfg0.N → Vec F S1024x1 .f32 × Vec F S1024x256 .bf16 × Vec F S1024x1 .f32
  | 0, hn => (idle0_3, idle0_4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then False.elim (by omega)
      else (idle0_3, idle0_4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (idle0_3, idle0_4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (idle0_3, idle0_4, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idle0_3, idle0_4, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
       out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
       sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left, the other scoped buffers and the generator register -/

/-- The core's scoped buffers other than the accumulator, each at some contents, and the generator register. -/
def Rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ ∃ r, prngReg c r)

theorem PhiA0_split (c : Dev nD) : (Pipeline.ΦA spec0 c : sProp 𝕄) ⊢ iprop((∃ d, owns (c : Thread nD τ) scM0 fullShare d) ∗ Rest0 c) := by
  unfold Pipeline.ΦA Rest0; rw [scopedRest0_eq]; simp only [scM0, owns_whole]
  iintro ⟨⟨HS, Hr⟩, Hg⟩
  isplitl [HS]; · iexact HS
  isplitl [Hr]; · iexact Hr
  iexact Hg
theorem PhiA0_join (c : Dev nD) : iprop((∃ d, owns (c : Thread nD τ) scM0 fullShare d) ∗ Rest0 c) ⊢ (Pipeline.ΦA spec0 c : sProp 𝕄) := by
  unfold Pipeline.ΦA Rest0; rw [scopedRest0_eq]; simp only [scM0, owns_whole]
  iintro ⟨HS, Hr, Hg⟩
  isplitl [HS Hr]
  · isplitl [HS]; · iexact HS
    iexact Hr
  iexact Hg

def PhiS0 (c : Dev nD) : (n : ℕ) → n ≤ cfg0.N → sProp 𝕄
  | 0, _ => Pipeline.ΦA spec0 c
  | n + 1, hn => iprop(owns (c : Thread nD τ) scM0 fullShare ((outsAt0 V c n hn).2.2) ∗ Rest0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2.2) ∗ Rest0 c) := rfl
theorem PhiS0_pos (c : Dev nD) (n : ℕ) (h : n ≤ cfg0.N) (hz : n ≠ 0) :
    PhiS0 V c n h = iprop(owns (c : Thread nD τ) scM0 fullShare ((outsAt0 V c (n - 1) (by omega)).2.2) ∗ Rest0 c) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.Kernel.Gen

end
-- ==== Proof.K.R0Body.lean ====
import proofs.«145517_j41455024340992_2_alg».proof.Proof.K.R0Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's obligation at every grid point

The inputs' staging buffers hold their blocks; the inner coordinate selects the case; the invariant hands the body the
accumulator at what the point before left (at anything before the first point) and takes it back at this point's
contents; an output window the point does not store into is handed back untouched. -/

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_split c) $$ HΦ
      icases HΦ' with ⟨HS0, Hr⟩
      iapply ((kernelRun0_A c (grid0.coords t) _ _ _ _ _ _ _ _ _ _ _ _ ((hcond0_0 t).mpr h0) (fun h => h1 ((hcond0_1 t).mp h)) (iblk0 V c 0 t)).2 Set.univ _)
      isplitl [H0]; · iexact H0
      isplitl [HS0]; · iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_A c _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t)).2 Set.univ _)
      isplitl [H0]; · iexact H0
      isplitl [HS0]; · iexists _; iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_A c _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4
  · have hz : t.val ≠ 0 := fun hz => h0 (by rw [hz])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C; (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hr]
      · isplitl [HS0]
        · unfold owns; iexists _; isplitr
          swap; · iexact HS0
          ipureintro; exact View.read_writes_of_cover _ _ _ _ _ (scover0_C c _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_B c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega)]
  iintro ⟨HS0, Hr⟩
  iapply (PhiA0_join c)
  isplitl [HS0]; · iexists _; iexact HS0
  iexact Hr

end Region0

end Cert.Kernel.Gen

end
-- ==== Proof.K.R1Runs.lean ====
import proofs.«145517_j41455024340992_2_alg».proof.Proof.Gen.Kernel.Launch
import proofs.«145517_j41455024340992_2_alg».proof.Proof.Gen.Kernel.Skeleton
import proofs.«145517_j41455024340992_2_alg».proof.Proof.Gen.Kernel.Points
import proofs.«145517_j41455024340992_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the adjacency times the scaled projection, accumulated over column blocks, one grid point at a time

The body branches on the inner grid coordinate alone: at its first value the accumulator is zeroed before the block's
product is added, at its last value the node's own scaled row is added and the sum scaled. Three cases are met:
first column block (A), a middle one (B), the last one (C). -/

/-- The accumulator is zeroed: the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The output is written: the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- One staging buffer of the output window, through which its contents are stated. -/
abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0
abbrev VS1 : View sig .tc .vmem S1024x256 .f32 := scM1.view

set_option maxHeartbeats 1000000 in
/-- First column block: the accumulator, at anything, is zeroed and the block's product added. -/
noncomputable def kernelRun1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S2048x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block's product is added to the accumulator. -/
noncomputable def kernelRun1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S2048x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The last column block: the product is added, then the output is written from the accumulator, the node's own scaled
    row and the inverse square roots. -/
noncomputable def kernelRun1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S2048x256 .bf16) (x2 : Vec F S1024x256 .bf16) (x3 : Vec F S1024x1 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, ?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Gen

end
-- ==== Proof.K.R1Data.lean ====
import proofs.«145517_j41455024340992_2_alg».proof.Proof.K.R1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, point by point: what the accumulator and the output hold

At the region's entry the unscoped buffers hold `V`. The adjacency window, the two windows on the scaled projection and
the inverse-square-root window hand the body their blocks; the accumulator after point `n` is the case's run on the
blocks at `n` and, off the first column block, on what point `n - 1` left; the output is written at the last column
block of each row block. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stores read back -/

theorem scover1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S2048x256 .bf16) (y : S1024x256.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x256.size (by sl_kernel_rfl) y
/-- The accumulator after a first column block. -/
def sout1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S2048x256 .bf16) : Vec F S1024x256 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S2048x256 .bf16) (xs0 : Vec F S1024x256 .f32) (y : S1024x256.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x256.size (by sl_kernel_rfl) y
/-- The accumulator after a middle column block. -/
def sout1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S2048x256 .bf16) (xs0 : Vec F S1024x256 .f32) : Vec F S1024x256 .f32 :=
  VS1.read (Elt F) (VS1.writes (Elt F) VS1.junk (kernelRun1_B c i arg2 harg2 arg3 harg3 arg4 harg4 arg5 harg5 arg6 harg6 arg7 harg7 hc0 hc1 x0 x1 xs0).1)

theorem cover1_C_4 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) (y : S1024x256.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x256.size (by sl_kernel_rfl) y
theorem scover1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) (y : S1024x256.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x256.size (by sl_kernel_rfl) y
/-- The output block and the accumulator after a last column block. -/
def out1_C_4 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
def sout1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) : Vec F S1024x256 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- What the output window is said to hold where the point does not store into it: nothing consults it. -/
def idle1_4 : Vec F S1024x256 .f32 := VO1_4.read (Elt F) (VO1_4.writes (Elt F) VO1_4.junk [])

/-! ## The accumulation -/

/-- After the body at position `n`: the output's staging buffer and the accumulator. -/
def outsAt1 (c : Dev nD) : (n : ℕ) → n < cfg1.N → Vec F S1024x256 .f32 × Vec F S1024x256 .f32
  | 0, hn => (idle1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (idle1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idle1_4, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idle1_4, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left, the other scoped buffers and the generator register -/

/-- The core's scoped buffers other than the accumulator, each at some contents, and the generator register. -/
def Rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ ∃ r, prngReg c r)

theorem PhiA1_split (c : Dev nD) : (Pipeline.ΦA spec1 c : sProp 𝕄) ⊢ iprop((∃ d, owns (c : Thread nD τ) scM1 fullShare d) ∗ Rest1 c) := by
  unfold Pipeline.ΦA Rest1; rw [scopedRest1_eq]; simp only [scM1, owns_whole]
  iintro ⟨⟨Hb0, Hb1, Hb2, Hb3, Hb4, Hb5, Hb6, Hb7, Hb8, Hb9, HS⟩, Hg⟩
  isplitl [HS]; · iexact HS
  isplitl [Hb0 Hb1 Hb2 Hb3 Hb4 Hb5 Hb6 Hb7 Hb8 Hb9]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact Hb9
  iexact Hg
theorem PhiA1_join (c : Dev nD) : iprop((∃ d, owns (c : Thread nD τ) scM1 fullShare d) ∗ Rest1 c) ⊢ (Pipeline.ΦA spec1 c : sProp 𝕄) := by
  unfold Pipeline.ΦA Rest1; rw [scopedRest1_eq]; simp only [scM1, owns_whole]
  iintro ⟨HS, ⟨Hb0, Hb1, Hb2, Hb3, Hb4, Hb5, Hb6, Hb7, Hb8, Hb9⟩, Hg⟩
  isplitl [HS Hb0 Hb1 Hb2 Hb3 Hb4 Hb5 Hb6 Hb7 Hb8 Hb9]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexact HS
  iexact Hg

def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ Rest1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c) := by
  cases n with
  | zero => exact absurd rfl hz
  | succ n => rfl

/-! ## The proof data: the two windows on the scaled projection each hold half of its array -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.Kernel.Gen

end
-- ==== Proof.K.R1Body.lean ====
import proofs.«145517_j41455024340992_2_alg».proof.Proof.K.R1Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body's obligation at every grid point

The inputs' staging buffers hold their blocks; the inner coordinate selects the case; the invariant hands the body the
accumulator at what the point before left (at anything before the first point) and takes it back at this point's
contents; the output window is handed back untouched where the point does not store into it. -/

section Region1

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨HS0, Hr⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_A c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_A c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr]
      · isplitl [HS0]
        · unfold owns; iexists _; isplitr
          swap; · iexact HS0
          ipureintro; exact View.read_writes_of_cover _ _ _ _ _ (scover1_C c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_B c _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨HS0, Hr⟩
  iapply (PhiA1_join c)
  isplitl [HS0]; · iexists _; iexact HS0
  iexact Hr

end Region1

end Cert.Kernel.Gen

end
-- ==== Proof.K.R1Share.lean ====
import proofs.«145517_j41455024340992_2_alg».proof.Proof.K.R1Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: five windows on four buffers

The scaled projection is read through two windows, a column block for the product and a row block for the node's own
rows. Its buffer, whole at the region's entry, is split into two half shares, one per window; at the exit, both windows
holding it unchanged, the halves are joined again. -/

section Region1

variable (V : (c : Dev nD) → (b : Ref sig .tc) → Buf (Elt F) ((c : Thread nD τ).loc b))

/-- The distinct buffers behind region 1's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v0_1) ↦{fullShare} V' main_v0_1)
          ∗ (((c : Thread nD τ).loc main_v0_0) ↦{fullShare} V' main_v0_0) ∗ (((c : Thread nD τ).loc main_v1) ↦{fullShare} V' main_v1)) := by
  unfold Pipeline.arrBufs
  rw [show Finset.univ.image (Pipeline.arrRef spec1) = insert main_arg0 (insert main_v0_1 (insert main_v0_0 {main_v1})) from by decide]
  rw [bigSep_insert (by decide), bigSep_insert (by decide), bigSep_insert (by decide), bigSep_singleton]
  rfl

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_v1) ↦{fullShare} G 4)) := by
  unfold Dat.arrays; rw [bigSep_W1]
  rw [(arr_whole1 0).set_eq_univ, (arr_whole1 1).set_eq_univ, (arr_whole1 3).set_eq_univ, (arr_whole1 4).set_eq_univ]
  rfl

/-- ENTRY: the four buffers whole at the region's entry contents are the five windows' arrays at theirs, the scaled
    projection's buffer cut into its two halves. -/
theorem arrays1_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  iexact H4

/-- EXIT: the inputs' arrays are as entered, so the two halves of the scaled projection's buffer join; the output's
    array is what the write-backs left. -/
theorem arrays1_exit (c : Dev nD) (V' : (b : Ref sig .tc) → Buf (Elt F) ((c : Thread nD τ).loc b))
    (h0 : V' main_arg0 = V c main_arg0) (h1 : V' main_v0_1 = V c main_v0_1) (h3 : V' main_v0_0 = V c main_v0_0)
    (h4 : V' main_v1 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq]
  rw [(dat1 V c).arrAt_in 0 rfl, (dat1 V c).arrAt_in 1 rfl, (dat1 V c).arrAt_in 2 rfl, (dat1 V c).arrAt_in 3 rfl, h0, h1, h3, h4]
  iintro ⟨H0, H1a, H1b, H3, H4⟩
  isplitl [H0]; · iexact H0
  isplitl [H1a H1b]
  · iapply (pointsTo_share (PosShare.mem_left_op_right fullShare)).2
    isplitl [H1a]; · iexact H1a
    iexact H1b
  isplitl [H3]; · iexact H3
  iexact H4

end Region1

end Cert.Kernel.Gen

end
-- ==== Proof.K.Run.lean ====
import proofs.«145517_j41455024340992_2_alg».proof.Proof.K.R0Body
import proofs.«145517_j41455024340992_2_alg».proof.Proof.K.R1Body
import proofs.«145517_j41455024340992_2_alg».proof.Proof.K.R1Share

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: region 0, region 1, the gather and the rectification

The unscoped buffers' contents at each boundary: at launch the memory; after region 0 its two output arrays at what its
write-backs leave; after region 1 its output array likewise; then the host operations' results. Every weakly fair
execution ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
abbrev V0r : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- At region 1's exit: its output array at what the pipeline leaves, every other buffer as entered. -/
def W2 (c : Dev nD) : Valuation τ sig (Elt F) :=
  Function.update (W1 m c) (Proc.devRef .tc main_v1) ((dat1 (V1r m) c).arrAt 4 cfg1.N)
abbrev V2r : (c : Dev nD) → (b : Ref sig .tc) → Buf (Elt F) ((c : Thread nD τ).loc b) := fun c b => W2 m c b
theorem W2_v1 (c : Dev nD) : V2r m c main_v1 = (dat1 (V1r m) c).arrAt 4 cfg1.N := Function.update_self ..
theorem W2_of_ne (c : Dev nD) (b : Ref sig .tc) (hb : b ≠ main_v1) : V2r m c b = V1r m c b :=
  Function.update_of_ne (StableHlo.devRef_ne_of_ne hb) ..
/-- After the gather and the bias, and after the rectification. -/
abbrev W3 : Dev nD → Valuation τ sig (Elt F) := fun c => StableHlo.after hostOps2 (W2 m c)
abbrev W4 : Dev nD → Valuation τ sig (Elt F) := fun c => StableHlo.after hostOps2_1 (W3 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V1r m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0r m) c).Φ 0 from rfl]
    iintro ⟨Hp, -, Hr⟩
    iapply (hin0 (V0r m) c)
    unfold Pipeline.ΦA
    isplitl [Hr]; · iexact Hr
    iexact Hp
  hout c := by
    rw [Pipeline.ownSems0_none, show (pdats m 0 c).Φ (Fin.last (Pipeline.pin (pcfgs (F := F)) adm 0).N) = (dat0 (V0r m) c).Φ (Fin.last cfg0.N) from rfl]
    have h := hout0 (V0r m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1r m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1r m c)
  hentry c := by
    have hs : (StableHlo.held (c : Thread nD τ) (Pipeline.ucRefs τ sig) (W1 m c) : sProp 𝕄)
        = iprop(Pipeline.arrBufs (Ix := Unit) (Name := ℕ) (U := UR sig nD τ) (Lvl := ℕ) spec1 c (V1r m c)
            ∗ Pipeline.unscopedRest (Ix := Unit) (Name := ℕ) (U := UR sig nD τ) (Lvl := ℕ) spec1 c (V1r m c)) := by
      have h := Pipeline.unscopedBufs_split₀ (Ix := Unit) (Name := ℕ) (U := UR sig nD τ) (Lvl := ℕ) (Val := Elt F) cfgs 1 winFacts₀1.arr_unscoped c (V1r m c)
      rw [Pipeline.unscopedBufs_held] at h; exact h
    rw [Pipeline.ownSems0_none, hs]
    iintro ⟨⟨⟨Hab, Hrest⟩, Hp, HO⟩, -, -⟩
    ihave Ha := (arrays1_entry (V1r m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1r m) c).Φ 0 from rfl]
    iintro ⟨Hp, -, Hr⟩
    iapply (hin1 (V1r m) c)
    unfold Pipeline.ΦA
    isplitl [Hr]; · iexact Hr
    iexact Hp
  hout c := by
    rw [Pipeline.ownSems0_none, show (pdats m 1 c).Φ (Fin.last (Pipeline.pin (pcfgs (F := F)) adm 1).N) = (dat1 (V1r m) c).Φ (Fin.last cfg1.N) from rfl]
    have h := hout1 (V1r m) c
    unfold Pipeline.ΦA at h
    iintro HΦ
    ihave H := h $$ HΦ
    icases H with ⟨Hr, Hp⟩
    isplitl [Hp]; · iexact Hp
    isplitr; · iempintro
    iexact Hr
  hexit c := by
    have hs : (StableHlo.held (c : Thread nD τ) (Pipeline.ucRefs τ sig) (W2 m c) : sProp 𝕄)
        = iprop(Pipeline.arrBufs (Ix := Unit) (Name := ℕ) (U := UR sig nD τ) (Lvl := ℕ) spec1 c (V2r m c)
            ∗ Pipeline.unscopedRest (Ix := Unit) (Name := ℕ) (U := UR sig nD τ) (Lvl := ℕ) spec1 c (V2r m c)) := by
      have h := Pipeline.unscopedBufs_split₀ (Ix := Unit) (Name := ℕ) (U := UR sig nD τ) (Lvl := ℕ) (Val := Elt F) cfgs 1 winFacts₀1.arr_unscoped c (V2r m c)
      rw [Pipeline.unscopedBufs_held] at h; exact h
    have hrest : (Pipeline.unscopedRest (Ix := Unit) (Name := ℕ) (U := UR sig nD τ) (Lvl := ℕ) spec1 c (V1r m c) : sProp 𝕄)
        = Pipeline.unscopedRest (Ix := Unit) (Name := ℕ) (U := UR sig nD τ) (Lvl := ℕ) spec1 c (V2r m c) := by
      unfold Pipeline.unscopedRest
      exact bigSep_congr fun b hb => by
        rw [W2_of_ne m c b (fun e => (Finset.mem_sdiff.mp hb).2 (Finset.mem_image.mpr ⟨4, Finset.mem_univ _, e.symm⟩))]
    rw [hs, ← hrest]
    iintro ⟨Ha, HO, HY, Hrest⟩
    imodintro
    isplitl [Ha Hrest]
    · isplitl [Ha]
      · iapply (arrays1_exit (V1r m) c (V2r m c) (W2_of_ne m c _ (by decide)) (W2_of_ne m c _ (by decide)) (W2_of_ne m c _ (by decide)) (W2_v1 m c))
        iexact Ha
      iexact Hrest
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)) ]

theorem main_run (c : Dev nD) : main (F := F) c = Pipeline.Seg.run (segsH m) := (main_chain c).trans (by chain_rfl)

set_option backward.isDefEq.respectTransparency.types false in
/-- Every weakly fair execution of @main from memory `m` terminates, nothing faulting, every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show (iprop(StableHlo.held (c : Thread nD τ) (Pipeline.ucRefs τ sig) (W4 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_of_W2 (c : Dev nD) (b : Ref sig .tc) (h2 : b ∉ hostOps2_W) (h21 : b ∉ hostOps2_1_W) :
    W4 m c (Proc.devRef .tc b) = W2 m c (Proc.devRef .tc b) :=
  (StableHlo.after_of_writes_sub hostOps2_1 _ hostOps2_1_writes h21).trans (StableHlo.after_of_writes_sub hostOps2 _ hostOps2_writes h2)

theorem W1_arg0 (c : Dev nD) : W1 m c (Proc.devRef .tc main_arg0) = m ((c : Thread nD τ).loc main_arg0) :=
  (W1_arr m c 0).trans (((dat0 (V0r m) c).arrAt_in 0 rfl _).trans (A_eq0 (V0r m) c 0))
theorem W1_arg2 (c : Dev nD) : W1 m c (Proc.devRef .tc main_arg2) = m ((c : Thread nD τ).loc main_arg2) :=
  (W1_arr m c 1).trans (((dat0 (V0r m) c).arrAt_in 1 rfl _).trans (A_eq0 (V0r m) c 1))
theorem W1_arg3 (c : Dev nD) : W1 m c (Proc.devRef .tc main_arg3) = m ((c : Thread nD τ).loc main_arg3) :=
  (W1_arr m c 2).trans (((dat0 (V0r m) c).arrAt_in 2 rfl _).trans (A_eq0 (V0r m) c 2))
theorem W1_arg1 (c : Dev nD) : W1 m c (Proc.devRef .tc main_arg1) = m ((c : Thread nD τ).loc main_arg1) :=
  W1_of_ne m c main_arg1 (by decide)
theorem W1_arg4 (c : Dev nD) : W1 m c (Proc.devRef .tc main_arg4) = m ((c : Thread nD τ).loc main_arg4) :=
  W1_of_ne m c main_arg4 (by decide)

theorem W4_arg0 (c : Dev nD) : W4 m c (Proc.devRef .tc main_arg0) = m ((c : Thread nD τ).loc main_arg0) :=
  (W4_of_W2 m c main_arg0 (by decide) (by decide)).trans ((W2_of_ne m c main_arg0 (by decide)).trans (W1_arg0 m c))
theorem W4_arg1 (c : Dev nD) : W4 m c (Proc.devRef .tc main_arg1) = m ((c : Thread nD τ).loc main_arg1) :=
  (W4_of_W2 m c main_arg1 (by decide) (by decide)).trans ((W2_of_ne m c main_arg1 (by decide)).trans (W1_arg1 m c))
theorem W4_arg2 (c : Dev nD) : W4 m c (Proc.devRef .tc main_arg2) = m ((c : Thread nD τ).loc main_arg2) :=
  (W4_of_W2 m c main_arg2 (by decide) (by decide)).trans ((W2_of_ne m c main_arg2 (by decide)).trans (W1_arg2 m c))
theorem W4_arg3 (c : Dev nD) : W4 m c (Proc.devRef .tc main_arg3) = m ((c : Thread nD τ).loc main_arg3) :=
  (W4_of_W2 m c main_arg3 (by decide) (by decide)).trans ((W2_of_ne m c main_arg3 (by decide)).trans (W1_arg3 m c))
theorem W4_arg4 (c : Dev nD) : W4 m c (Proc.devRef .tc main_arg4) = m ((c : Thread nD τ).loc main_arg4) :=
  (W4_of_W2 m c main_arg4 (by decide) (by decide)).trans ((W2_of_ne m c main_arg4 (by decide)).trans (W1_arg4 m c))

/-- THE FRAME, at any `F`: every weakly fair execution terminates, nothing faulting, the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg0 m c), (h c _ (mem_uc main_arg1 (by decide))).trans (W4_arg1 m c),
     (h c _ (mem_uc main_arg2 (by decide))).trans (W4_arg2 m c), (h c _ (mem_uc main_arg3 (by decide))).trans (W4_arg3 m c),
     (h c _ (mem_uc main_arg4 (by decide))).trans (W4_arg4 m c)⟩) (run_all m ρ)

end Cert.Kernel.Gen

end
-- ==== Proof.KI.R0Runs.lean ====
import proofs.«145517_j41455024340992_2_alg».proof.Proof.Gen.KernelIdeal.Launch
import proofs.«145517_j41455024340992_2_alg».proof.Proof.Gen.KernelIdeal.Skeleton
import proofs.«145517_j41455024340992_2_alg».proof.Proof.Gen.KernelIdeal.Points
import proofs.«145517_j41455024340992_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the degree accumulator and the scaled projection, one grid point at a time

The body branches on the inner grid coordinate alone: at its first value the accumulator is zeroed before the block's
row sums are added, at its last value the accumulated degree is turned into the inverse square root and the projected
rows are scaled by it. Three cases are met: first column block (A), a middle one (B), the last one (C). -/

/-- The accumulator is zeroed: the inner coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The outputs are written: the inner coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each output window, through which its contents are stated. -/
abbrev VO0_3 : View sig .tc .vmem S1024x1 .f32 := (Memref.whole cc0_stg3_0 : Memref sig .tc .vmem S1024x1 .f32).view
abbrev VO0_4 : View sig .tc .vmem S1024x256 .bf16 := (Memref.whole cc0_stg4_0 : Memref sig .tc .vmem S1024x256 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1 .f32 := Memref.whole cc0_scratch0
abbrev VS0 : View sig .tc .vmem S1024x1 .f32 := scM0.view

set_option maxHeartbeats 1000000 in
/-- First column block: the accumulator, at anything, is zeroed and the block's row sums added. -/
noncomputable def kernelRun0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i)
    (x0 : Vec F S1024x2048 .f32) :
    { LS0 : List (View.Piece (Elt F) S1024x1 .f32) //
      ∀ (E : Set ℕ) (K : PUnit → sProp 𝕄),
        iprop(owns (c : Thread nD τ) arg2 fullShare x0 ∗ (∃ d, owns (c : Thread nD τ) arg7 fullShare d)
            ∗ (iprop(owns (c : Thread nD τ) arg2 fullShare x0
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, fun E K => ?run⟩
  case run =>
    simp only [cc0__rowsum_y_kernel_eq_skeleton]; unfold cc0__rowsum_y_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- A middle column block: the block's row sums are added to the accumulator. -/
noncomputable def kernelRun0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i)
    (x0 : Vec F S1024x2048 .f32) (xs0 : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg7 fullShare xs0
            ∗ (iprop(owns (c : Thread nD τ) arg2 fullShare x0
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, fun E K => ?run⟩
  case run =>
    simp only [cc0__rowsum_y_kernel_eq_skeleton]; unfold cc0__rowsum_y_kernel_skel
    unfold owns
    iintro ⟨⟨%f0, %hf0, H0⟩, ⟨%fs0, %hfs0, HS0⟩, Hk⟩
    obtain rfl := harg2.eq_unread hf0; obtain rfl := harg7.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- The last column block: the row sums are added, then both outputs are written from the accumulated degree. -/
noncomputable def kernelRun0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i)
    (x0 : Vec F S1024x2048 .f32) (x1 : Vec F S1024x512 .f32) (x2 : Vec F S512x256 .f32) (xs0 : Vec F S1024x1 .f32) :
    Σ' (L3 : List (View.Piece (Elt F) S1024x1 .f32)) (L4 : List (View.Piece (Elt F) S1024x256 .bf16)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_y_kernel i arg2 harg2 arg3 harg3 arg4 harg4 arg5 harg5 arg6 harg6 arg7 harg7) K } := by
  refine ⟨?_, ?_, ?_, fun E K => ?run⟩
  case run =>
    simp only [cc0__rowsum_y_kernel_eq_skeleton]; unfold cc0__rowsum_y_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Gen

end
-- ==== Proof.KI.R0Data.lean ====
import proofs.«145517_j41455024340992_2_alg».proof.Proof.Gen.KernelIdeal.Launch
import proofs.«145517_j41455024340992_2_alg».proof.Proof.Gen.KernelIdeal.Skeleton
import proofs.«145517_j41455024340992_2_alg».proof.Proof.Gen.KernelIdeal.Points
import proofs.«145517_j41455024340992_2_alg».proof.Proof.Gen.KernelIdeal.Regions
import proofs.«145517_j41455024340992_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, point by point: what the accumulator and the two outputs hold, and the body's obligation

At the region's entry the unscoped buffers hold `V`. The adjacency, feature and weight windows hand the body their
blocks; the accumulator after point `n` is the case's run on the block at `n` and, off the first column block, on
what point `n - 1` left; the outputs are written at the last column block of each row block. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

theorem scover0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i) (x0 : Vec F S1024x2048 .f32) (y : S1024x1.Idx) :
    ∃ pc ∈ (kernelRun0_A c i arg2 harg2 arg3 harg3 arg4 harg4 arg5 harg5 arg6 harg6 arg7 harg7 hc0 hc1 x0).1, y ∈ pc.1.set :=
  View.cover_of_tiledL (kernelRun0_A c i arg2 harg2 arg3 harg3 arg4 harg4 arg5 harg5 arg6 harg6 arg7 harg7 hc0 hc1 x0).1 S1024x1.size (by sl_kernel_rfl) y
/-- The accumulator after a first column block. -/
def sout0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i) (x0 : Vec F S1024x2048 .f32) : Vec F S1024x1 .f32 :=
  VS0.read (Elt F) (VS0.writes (Elt F) VS0.junk (kernelRun0_A c i arg2 harg2 arg3 harg3 arg4 harg4 arg5 harg5 arg6 harg6 arg7 harg7 hc0 hc1 x0).1)

theorem scover0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i) (x0 : Vec F S1024x2048 .f32) (xs0 : Vec F S1024x1 .f32) (y : S1024x1.Idx) :
    ∃ pc ∈ (kernelRun0_B c i arg2 harg2 arg3 harg3 arg4 harg4 arg5 harg5 arg6 harg6 arg7 harg7 hc0 hc1 x0 xs0).1, y ∈ pc.1.set :=
  View.cover_of_tiledL (kernelRun0_B c i arg2 harg2 arg3 harg3 arg4 harg4 arg5 harg5 arg6 harg6 arg7 harg7 hc0 hc1 x0 xs0).1 S1024x1.size (by sl_kernel_rfl) y
/-- The accumulator after a middle column block. -/
def sout0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i) (x0 : Vec F S1024x2048 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 hc1 x0 xs0).1)

theorem cover0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1024x1.size (by sl_kernel_rfl) y
theorem cover0_C_4 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1024x256.size (by sl_kernel_rfl) y
theorem scover0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1024x1.size (by sl_kernel_rfl) y
/-- The inverse-square-root column, the scaled projection and the accumulator after a last column block. -/
def out0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
def out0_C_4 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x256 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
def sout0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) : Vec F S1024x1 .f32 :=
  VS0.read (Elt F) (VS0.writes (Elt F) VS0.junk (kernelRun0_C c i arg2 harg2 arg3 harg3 arg4 harg4 arg5 harg5 arg6 harg6 arg7 harg7 hc0 hc1 x0 x1 x2 xs0).2.2.1)

/-- What an output window that the point does not store into is said to hold: nothing consults it. -/
def idle0_3 : Vec F S1024x1 .f32 := VO0_3.read (Elt F) (VO0_3.writes (Elt F) VO0_3.junk [])
def idle0_4 : Vec F S1024x256 .bf16 := VO0_4.read (Elt F) (VO0_4.writes (Elt F) VO0_4.junk [])

/-! ## The accumulation -/

/-- After the body at position `n`: the two outputs' staging buffers and the accumulator. -/
def outsAt0 (c : Dev nD) : (n : ℕ) → n < cfg0.N → Vec F S1024x1 .f32 × Vec F S1024x256 .bf16 × Vec F S1024x1 .f32
  | 0, hn => (idle0_3, idle0_4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then False.elim (by omega)
      else (idle0_3, idle0_4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (idle0_3, idle0_4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (idle0_3, idle0_4, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idle0_3, idle0_4, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
       out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
       sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left, the other scoped buffers and the generator register -/

/-- The core's scoped buffers other than the accumulator, each at some contents, and the generator register. -/
def Rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ ∃ r, prngReg c r)

theorem PhiA0_split (c : Dev nD) : (Pipeline.ΦA spec0 c : sProp 𝕄) ⊢ iprop((∃ d, owns (c : Thread nD τ) scM0 fullShare d) ∗ Rest0 c) := by
  unfold Pipeline.ΦA Rest0; rw [scopedRest0_eq]; simp only [scM0, owns_whole]
  iintro ⟨⟨HS, Hr⟩, Hg⟩
  isplitl [HS]; · iexact HS
  isplitl [Hr]; · iexact Hr
  iexact Hg
theorem PhiA0_join (c : Dev nD) : iprop((∃ d, owns (c : Thread nD τ) scM0 fullShare d) ∗ Rest0 c) ⊢ (Pipeline.ΦA spec0 c : sProp 𝕄) := by
  unfold Pipeline.ΦA Rest0; rw [scopedRest0_eq]; simp only [scM0, owns_whole]
  iintro ⟨HS, Hr, Hg⟩
  isplitl [HS Hr]
  · isplitl [HS]; · iexact HS
    iexact Hr
  iexact Hg

def PhiS0 (c : Dev nD) : (n : ℕ) → n ≤ cfg0.N → sProp 𝕄
  | 0, _ => Pipeline.ΦA spec0 c
  | n + 1, hn => iprop(owns (c : Thread nD τ) scM0 fullShare ((outsAt0 V c n hn).2.2) ∗ Rest0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2.2) ∗ Rest0 c) := rfl
theorem PhiS0_pos (c : Dev nD) (n : ℕ) (h : n ≤ cfg0.N) (hz : n ≠ 0) :
    PhiS0 V c n h = iprop(owns (c : Thread nD τ) scM0 fullShare ((outsAt0 V c (n - 1) (by omega)).2.2) ∗ Rest0 c) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.KernelIdeal.Gen

end
-- ==== Proof.KI.R0Body.lean ====
import proofs.«145517_j41455024340992_2_alg».proof.Proof.KI.R0Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's obligation at every grid point

The inputs' staging buffers hold their blocks; the inner coordinate selects the case; the invariant hands the body the
accumulator at what the point before left (at anything before the first point) and takes it back at this point's
contents; an output window the point does not store into is handed back untouched. -/

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_split c) $$ HΦ
      icases HΦ' with ⟨HS0, Hr⟩
      iapply ((kernelRun0_A c (grid0.coords t) _ _ _ _ _ _ _ _ _ _ _ _ ((hcond0_0 t).mpr h0) (fun h => h1 ((hcond0_1 t).mp h)) (iblk0 V c 0 t)).2 Set.univ _)
      isplitl [H0]; · iexact H0
      isplitl [HS0]; · iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_A c _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t)).2 Set.univ _)
      isplitl [H0]; · iexact H0
      isplitl [HS0]; · iexists _; iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_A c _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4
  · have hz : t.val ≠ 0 := fun hz => h0 (by rw [hz])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C; (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hr]
      · isplitl [HS0]
        · unfold owns; iexists _; isplitr
          swap; · iexact HS0
          ipureintro; exact View.read_writes_of_cover _ _ _ _ _ (scover0_C c _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 Hr]
      · isplitl [HS0]
        · unfold owns; iexists _; isplitr
          swap; · iexact HS0
          ipureintro; exact View.read_writes_of_cover _ _ _ _ _ (scover0_B c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega)]
  iintro ⟨HS0, Hr⟩
  iapply (PhiA0_join c)
  isplitl [HS0]; · iexists _; iexact HS0
  iexact Hr

end Region0

end Cert.KernelIdeal.Gen

end
-- ==== Proof.KI.R1Runs.lean ====
import proofs.«145517_j41455024340992_2_alg».proof.Proof.Gen.KernelIdeal.Launch
import proofs.«145517_j41455024340992_2_alg».proof.Proof.Gen.KernelIdeal.Skeleton
import proofs.«145517_j41455024340992_2_alg».proof.Proof.Gen.KernelIdeal.Points
import proofs.«145517_j41455024340992_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the adjacency times the scaled projection, accumulated over column blocks, one grid point at a time

The body branches on the inner grid coordinate alone: at its first value the accumulator is zeroed before the block's
product is added, at its last value the node's own scaled row is added and the sum scaled. Three cases are met:
first column block (A), a middle one (B), the last one (C). -/

/-- The accumulator is zeroed: the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The output is written: the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- One staging buffer of the output window, through which its contents are stated. -/
abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0
abbrev VS1 : View sig .tc .vmem S1024x256 .f32 := scM1.view

set_option maxHeartbeats 1000000 in
/-- First column block: the accumulator, at anything, is zeroed and the block's product added. -/
noncomputable def kernelRun1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S2048x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block's product is added to the accumulator. -/
noncomputable def kernelRun1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S2048x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The last column block: the product is added, then the output is written from the accumulator, the node's own scaled
    row and the inverse square roots. -/
noncomputable def kernelRun1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S2048x256 .bf16) (x2 : Vec F S1024x256 .bf16) (x3 : Vec F S1024x1 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__main_matmul_kernel i arg2 harg2 arg3 harg3 arg4 harg4 arg5 harg5 arg6 harg6 arg7 harg7) K } := by
  refine ⟨?_, ?_, fun E K => ?run⟩
  case run =>
    simp only [cc1__main_matmul_kernel_eq_skeleton]; unfold cc1__main_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Gen

end
-- ==== Proof.KI.R1Data.lean ====
import proofs.«145517_j41455024340992_2_alg».proof.Proof.KI.R1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, point by point: what the accumulator and the output hold

At the region's entry the unscoped buffers hold `V`. The adjacency window, the two windows on the scaled projection and
the inverse-square-root window hand the body their blocks; the accumulator after point `n` is the case's run on the
blocks at `n` and, off the first column block, on what point `n - 1` left; the output is written at the last column
block of each row block. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stores read back -/

theorem scover1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S2048x256 .bf16) (y : S1024x256.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x256.size (by sl_kernel_rfl) y
/-- The accumulator after a first column block. -/
def sout1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S2048x256 .bf16) : Vec F S1024x256 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S2048x256 .bf16) (xs0 : Vec F S1024x256 .f32) (y : S1024x256.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x256.size (by sl_kernel_rfl) y
/-- The accumulator after a middle column block. -/
def sout1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S2048x256 .bf16) (xs0 : Vec F S1024x256 .f32) : Vec F S1024x256 .f32 :=
  VS1.read (Elt F) (VS1.writes (Elt F) VS1.junk (kernelRun1_B c i arg2 harg2 arg3 harg3 arg4 harg4 arg5 harg5 arg6 harg6 arg7 harg7 hc0 hc1 x0 x1 xs0).1)

theorem cover1_C_4 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) (y : S1024x256.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x256.size (by sl_kernel_rfl) y
theorem scover1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) (y : S1024x256.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x256.size (by sl_kernel_rfl) y
/-- The output block and the accumulator after a last column block. -/
def out1_C_4 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
def sout1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) : Vec F S1024x256 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- What the output window is said to hold where the point does not store into it: nothing consults it. -/
def idle1_4 : Vec F S1024x256 .f32 := VO1_4.read (Elt F) (VO1_4.writes (Elt F) VO1_4.junk [])

/-! ## The accumulation -/

/-- After the body at position `n`: the output's staging buffer and the accumulator. -/
def outsAt1 (c : Dev nD) : (n : ℕ) → n < cfg1.N → Vec F S1024x256 .f32 × Vec F S1024x256 .f32
  | 0, hn => (idle1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (idle1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idle1_4, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idle1_4, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left, the other scoped buffers and the generator register -/

/-- The core's scoped buffers other than the accumulator, each at some contents, and the generator register. -/
def Rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ ∃ r, prngReg c r)

theorem PhiA1_split (c : Dev nD) : (Pipeline.ΦA spec1 c : sProp 𝕄) ⊢ iprop((∃ d, owns (c : Thread nD τ) scM1 fullShare d) ∗ Rest1 c) := by
  unfold Pipeline.ΦA Rest1; rw [scopedRest1_eq]; simp only [scM1, owns_whole]
  iintro ⟨⟨Hb0, Hb1, Hb2, Hb3, Hb4, Hb5, Hb6, Hb7, Hb8, Hb9, HS⟩, Hg⟩
  isplitl [HS]; · iexact HS
  isplitl [Hb0 Hb1 Hb2 Hb3 Hb4 Hb5 Hb6 Hb7 Hb8 Hb9]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact Hb9
  iexact Hg
theorem PhiA1_join (c : Dev nD) : iprop((∃ d, owns (c : Thread nD τ) scM1 fullShare d) ∗ Rest1 c) ⊢ (Pipeline.ΦA spec1 c : sProp 𝕄) := by
  unfold Pipeline.ΦA Rest1; rw [scopedRest1_eq]; simp only [scM1, owns_whole]
  iintro ⟨HS, ⟨Hb0, Hb1, Hb2, Hb3, Hb4, Hb5, Hb6, Hb7, Hb8, Hb9⟩, Hg⟩
  isplitl [HS Hb0 Hb1 Hb2 Hb3 Hb4 Hb5 Hb6 Hb7 Hb8 Hb9]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexact HS
  iexact Hg

def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ Rest1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c) := by
  cases n with
  | zero => exact absurd rfl hz
  | succ n => rfl

/-! ## The proof data: the two windows on the scaled projection each hold half of its array -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.KernelIdeal.Gen

end
-- ==== Proof.KI.R1Body.lean ====
import proofs.«145517_j41455024340992_2_alg».proof.Proof.KI.R1Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body's obligation at every grid point

The inputs' staging buffers hold their blocks; the inner coordinate selects the case; the invariant hands the body the
accumulator at what the point before left (at anything before the first point) and takes it back at this point's
contents; the output window is handed back untouched where the point does not store into it. -/

section Region1

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨HS0, Hr⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_A c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_A c _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr]
      · isplitl [HS0]
        · unfold owns; iexists _; isplitr
          swap; · iexact HS0
          ipureintro; exact View.read_writes_of_cover _ _ _ _ _ (scover1_C c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover1_B c _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨HS0, Hr⟩
  iapply (PhiA1_join c)
  isplitl [HS0]; · iexists _; iexact HS0
  iexact Hr

end Region1

end Cert.KernelIdeal.Gen

end
-- ==== Proof.KI.R1Share.lean ====
import proofs.«145517_j41455024340992_2_alg».proof.Proof.KI.R1Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: five windows on four buffers

The scaled projection is read through two windows, a column block for the product and a row block for the node's own
rows. Its buffer, whole at the region's entry, is split into two half shares, one per window; at the exit, both windows
holding it unchanged, the halves are joined again. -/

section Region1

variable (V : (c : Dev nD) → (b : Ref sig .tc) → Buf (Elt F) ((c : Thread nD τ).loc b))

/-- The distinct buffers behind region 1's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v0_1) ↦{fullShare} V' main_v0_1)
          ∗ (((c : Thread nD τ).loc main_v0_0) ↦{fullShare} V' main_v0_0) ∗ (((c : Thread nD τ).loc main_v1) ↦{fullShare} V' main_v1)) := by
  unfold Pipeline.arrBufs
  rw [show Finset.univ.image (Pipeline.arrRef spec1) = insert main_arg0 (insert main_v0_1 (insert main_v0_0 {main_v1})) from by decide]
  rw [bigSep_insert (by decide), bigSep_insert (by decide), bigSep_insert (by decide), bigSep_singleton]
  rfl

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_v1) ↦{fullShare} G 4)) := by
  unfold Dat.arrays; rw [bigSep_W1]
  rw [(arr_whole1 0).set_eq_univ, (arr_whole1 1).set_eq_univ, (arr_whole1 3).set_eq_univ, (arr_whole1 4).set_eq_univ]
  rfl

/-- ENTRY: the four buffers whole at the region's entry contents are the five windows' arrays at theirs, the scaled
    projection's buffer cut into its two halves. -/
theorem arrays1_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  iexact H4

/-- EXIT: the inputs' arrays are as entered, so the two halves of the scaled projection's buffer join; the output's
    array is what the write-backs left. -/
theorem arrays1_exit (c : Dev nD) (V' : (b : Ref sig .tc) → Buf (Elt F) ((c : Thread nD τ).loc b))
    (h0 : V' main_arg0 = V c main_arg0) (h1 : V' main_v0_1 = V c main_v0_1) (h3 : V' main_v0_0 = V c main_v0_0)
    (h4 : V' main_v1 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq]
  rw [(dat1 V c).arrAt_in 0 rfl, (dat1 V c).arrAt_in 1 rfl, (dat1 V c).arrAt_in 2 rfl, (dat1 V c).arrAt_in 3 rfl, h0, h1, h3, h4]
  iintro ⟨H0, H1a, H1b, H3, H4⟩
  isplitl [H0]; · iexact H0
  isplitl [H1a H1b]
  · iapply (pointsTo_share (PosShare.mem_left_op_right fullShare)).2
    isplitl [H1a]; · iexact H1a
    iexact H1b
  isplitl [H3]; · iexact H3
  iexact H4

end Region1

end Cert.KernelIdeal.Gen

end
-- ==== Proof.KI.Run.lean ====
import proofs.«145517_j41455024340992_2_alg».proof.Proof.KI.R0Body
import proofs.«145517_j41455024340992_2_alg».proof.Proof.KI.R1Body
import proofs.«145517_j41455024340992_2_alg».proof.Proof.KI.R1Share

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: region 0, region 1, the gather and the rectification

The unscoped buffers' contents at each boundary: at launch the memory; after region 0 its two output arrays at what its
write-backs leave; after region 1 its output array likewise; then the host operations' results. Every weakly fair
execution ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
abbrev V0r : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- At region 1's exit: its output array at what the pipeline leaves, every other buffer as entered. -/
def W2 (c : Dev nD) : Valuation τ sig (Elt F) :=
  Function.update (W1 m c) (Proc.devRef .tc main_v1) ((dat1 (V1r m) c).arrAt 4 cfg1.N)
abbrev V2r : (c : Dev nD) → (b : Ref sig .tc) → Buf (Elt F) ((c : Thread nD τ).loc b) := fun c b => W2 m c b
theorem W2_v1 (c : Dev nD) : V2r m c main_v1 = (dat1 (V1r m) c).arrAt 4 cfg1.N := Function.update_self ..
theorem W2_of_ne (c : Dev nD) (b : Ref sig .tc) (hb : b ≠ main_v1) : V2r m c b = V1r m c b :=
  Function.update_of_ne (StableHlo.devRef_ne_of_ne hb) ..
/-- After the gather and the bias, and after the rectification. -/
abbrev W3 : Dev nD → Valuation τ sig (Elt F) := fun c => StableHlo.after hostOps2 (W2 m c)
abbrev W4 : Dev nD → Valuation τ sig (Elt F) := fun c => StableHlo.after hostOps2_1 (W3 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V1r m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0r m) c).Φ 0 from rfl]
    iintro ⟨Hp, -, Hr⟩
    iapply (hin0 (V0r m) c)
    unfold Pipeline.ΦA
    isplitl [Hr]; · iexact Hr
    iexact Hp
  hout c := by
    rw [Pipeline.ownSems0_none, show (pdats m 0 c).Φ (Fin.last (Pipeline.pin (pcfgs (F := F)) adm 0).N) = (dat0 (V0r m) c).Φ (Fin.last cfg0.N) from rfl]
    have h := hout0 (V0r m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1r m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1r m c)
  hentry c := by
    have hs : (StableHlo.held (c : Thread nD τ) (Pipeline.ucRefs τ sig) (W1 m c) : sProp 𝕄)
        = iprop(Pipeline.arrBufs (Ix := Unit) (Name := ℕ) (U := UR sig nD τ) (Lvl := ℕ) spec1 c (V1r m c)
            ∗ Pipeline.unscopedRest (Ix := Unit) (Name := ℕ) (U := UR sig nD τ) (Lvl := ℕ) spec1 c (V1r m c)) := by
      have h := Pipeline.unscopedBufs_split₀ (Ix := Unit) (Name := ℕ) (U := UR sig nD τ) (Lvl := ℕ) (Val := Elt F) cfgs 1 winFacts₀1.arr_unscoped c (V1r m c)
      rw [Pipeline.unscopedBufs_held] at h; exact h
    rw [Pipeline.ownSems0_none, hs]
    iintro ⟨⟨⟨Hab, Hrest⟩, Hp, HO⟩, -, -⟩
    ihave Ha := (arrays1_entry (V1r m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1r m) c).Φ 0 from rfl]
    iintro ⟨Hp, -, Hr⟩
    iapply (hin1 (V1r m) c)
    unfold Pipeline.ΦA
    isplitl [Hr]; · iexact Hr
    iexact Hp
  hout c := by
    rw [Pipeline.ownSems0_none, show (pdats m 1 c).Φ (Fin.last (Pipeline.pin (pcfgs (F := F)) adm 1).N) = (dat1 (V1r m) c).Φ (Fin.last cfg1.N) from rfl]
    have h := hout1 (V1r m) c
    unfold Pipeline.ΦA at h
    iintro HΦ
    ihave H := h $$ HΦ
    icases H with ⟨Hr, Hp⟩
    isplitl [Hp]; · iexact Hp
    isplitr; · iempintro
    iexact Hr
  hexit c := by
    have hs : (StableHlo.held (c : Thread nD τ) (Pipeline.ucRefs τ sig) (W2 m c) : sProp 𝕄)
        = iprop(Pipeline.arrBufs (Ix := Unit) (Name := ℕ) (U := UR sig nD τ) (Lvl := ℕ) spec1 c (V2r m c)
            ∗ Pipeline.unscopedRest (Ix := Unit) (Name := ℕ) (U := UR sig nD τ) (Lvl := ℕ) spec1 c (V2r m c)) := by
      have h := Pipeline.unscopedBufs_split₀ (Ix := Unit) (Name := ℕ) (U := UR sig nD τ) (Lvl := ℕ) (Val := Elt F) cfgs 1 winFacts₀1.arr_unscoped c (V2r m c)
      rw [Pipeline.unscopedBufs_held] at h; exact h
    have hrest : (Pipeline.unscopedRest (Ix := Unit) (Name := ℕ) (U := UR sig nD τ) (Lvl := ℕ) spec1 c (V1r m c) : sProp 𝕄)
        = Pipeline.unscopedRest (Ix := Unit) (Name := ℕ) (U := UR sig nD τ) (Lvl := ℕ) spec1 c (V2r m c) := by
      unfold Pipeline.unscopedRest
      exact bigSep_congr fun b hb => by
        rw [W2_of_ne m c b (fun e => (Finset.mem_sdiff.mp hb).2 (Finset.mem_image.mpr ⟨4, Finset.mem_univ _, e.symm⟩))]
    rw [hs, ← hrest]
    iintro ⟨Ha, HO, HY, Hrest⟩
    imodintro
    isplitl [Ha Hrest]
    · isplitl [Ha]
      · iapply (arrays1_exit (V1r m) c (V2r m c) (W2_of_ne m c _ (by decide)) (W2_of_ne m c _ (by decide)) (W2_of_ne m c _ (by decide)) (W2_v1 m c))
        iexact Ha
      iexact Hrest
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)) ]

theorem main_run (c : Dev nD) : main (F := F) c = Pipeline.Seg.run (segsH m) := (main_chain c).trans (by chain_rfl)

set_option backward.isDefEq.respectTransparency.types false in
/-- Every weakly fair execution of @main from memory `m` terminates, nothing faulting, every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show (iprop(StableHlo.held (c : Thread nD τ) (Pipeline.ucRefs τ sig) (W4 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_of_W2 (c : Dev nD) (b : Ref sig .tc) (h2 : b ∉ hostOps2_W) (h21 : b ∉ hostOps2_1_W) :
    W4 m c (Proc.devRef .tc b) = W2 m c (Proc.devRef .tc b) :=
  (StableHlo.after_of_writes_sub hostOps2_1 _ hostOps2_1_writes h21).trans (StableHlo.after_of_writes_sub hostOps2 _ hostOps2_writes h2)

theorem W1_arg0 (c : Dev nD) : W1 m c (Proc.devRef .tc main_arg0) = m ((c : Thread nD τ).loc main_arg0) :=
  (W1_arr m c 0).trans (((dat0 (V0r m) c).arrAt_in 0 rfl _).trans (A_eq0 (V0r m) c 0))
theorem W1_arg2 (c : Dev nD) : W1 m c (Proc.devRef .tc main_arg2) = m ((c : Thread nD τ).loc main_arg2) :=
  (W1_arr m c 1).trans (((dat0 (V0r m) c).arrAt_in 1 rfl _).trans (A_eq0 (V0r m) c 1))
theorem W1_arg3 (c : Dev nD) : W1 m c (Proc.devRef .tc main_arg3) = m ((c : Thread nD τ).loc main_arg3) :=
  (W1_arr m c 2).trans (((dat0 (V0r m) c).arrAt_in 2 rfl _).trans (A_eq0 (V0r m) c 2))
theorem W1_arg1 (c : Dev nD) : W1 m c (Proc.devRef .tc main_arg1) = m ((c : Thread nD τ).loc main_arg1) :=
  W1_of_ne m c main_arg1 (by decide)
theorem W1_arg4 (c : Dev nD) : W1 m c (Proc.devRef .tc main_arg4) = m ((c : Thread nD τ).loc main_arg4) :=
  W1_of_ne m c main_arg4 (by decide)

theorem W4_arg0 (c : Dev nD) : W4 m c (Proc.devRef .tc main_arg0) = m ((c : Thread nD τ).loc main_arg0) :=
  (W4_of_W2 m c main_arg0 (by decide) (by decide)).trans ((W2_of_ne m c main_arg0 (by decide)).trans (W1_arg0 m c))
theorem W4_arg1 (c : Dev nD) : W4 m c (Proc.devRef .tc main_arg1) = m ((c : Thread nD τ).loc main_arg1) :=
  (W4_of_W2 m c main_arg1 (by decide) (by decide)).trans ((W2_of_ne m c main_arg1 (by decide)).trans (W1_arg1 m c))
theorem W4_arg2 (c : Dev nD) : W4 m c (Proc.devRef .tc main_arg2) = m ((c : Thread nD τ).loc main_arg2) :=
  (W4_of_W2 m c main_arg2 (by decide) (by decide)).trans ((W2_of_ne m c main_arg2 (by decide)).trans (W1_arg2 m c))
theorem W4_arg3 (c : Dev nD) : W4 m c (Proc.devRef .tc main_arg3) = m ((c : Thread nD τ).loc main_arg3) :=
  (W4_of_W2 m c main_arg3 (by decide) (by decide)).trans ((W2_of_ne m c main_arg3 (by decide)).trans (W1_arg3 m c))
theorem W4_arg4 (c : Dev nD) : W4 m c (Proc.devRef .tc main_arg4) = m ((c : Thread nD τ).loc main_arg4) :=
  (W4_of_W2 m c main_arg4 (by decide) (by decide)).trans ((W2_of_ne m c main_arg4 (by decide)).trans (W1_arg4 m c))

/-- THE FRAME, at any `F`: every weakly fair execution terminates, nothing faulting, the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg0 m c), (h c _ (mem_uc main_arg1 (by decide))).trans (W4_arg1 m c),
     (h c _ (mem_uc main_arg2 (by decide))).trans (W4_arg2 m c), (h c _ (mem_uc main_arg3 (by decide))).trans (W4_arg3 m c),
     (h c _ (mem_uc main_arg4 (by decide))).trans (W4_arg4 m c)⟩) (run_all m ρ)

end Cert.KernelIdeal.Gen

end
-- ==== Proof.RefRead.lean ====
import proofs.«145517_j41455024340992_2_alg».proof.Proof.Gen.ReferenceIdeal.Read

/-! The reference's run and its stages read at an index (the generated modules), re-exported for the
    modules that state what the reference computes. -/
-- ==== Proof.LibGcnLaw.lean ====
import Mathlib
import Idealize.ShloMosaic.PureOps.Ideal
import Idealize.ShloMosaic.PureOps.Ideal.Laws

/-!
# A normalised graph-convolution row, two arrangements, on the extended reals

Over a finite node type `ι` cut into four consecutive runs `blk b : γ → ι`, an adjacency `A`, and one column
`xw` of the projected features:

* the degree of node `i` accumulated run by run from `0`, its inverse square root `r i`, the scaled column
  `y k = xw k * r k`, and the row `((∑ over the runs of A i k * y k) + y i) * r i`;
* against `Ã = A + I`, `d i = 1 / √(∑ₖ Ã i k)`, `Â i k = (d i * Ã i k) * d k` and `∑ₖ Â i k * xw k`.

With every entry finite and every row sum of `Ã` positive the two agree: all quantities are then real, the two
inverse square roots are one number, and the identity is distributivity and commutativity in `ℝ`.
-/

noncomputable section

namespace Cert.GcnLaw

open Idealize.ShloMosaic

variable {ι γ : Type} [Fintype ι] [DecidableEq ι] [Fintype γ]

/-- The identity matrix's entry. -/
def eye (i k : ι) : EReal := if i = k then 1 else 0

/-- The degree of node `i` accumulated over the four runs, from zero. -/
def accDeg (blk : Fin 4 → γ → ι) (A : ι → ι → EReal) (i : ι) : EReal :=
  (((0 + ∑ j, A i (blk 0 j)) + ∑ j, A i (blk 1 j)) + ∑ j, A i (blk 2 j)) + ∑ j, A i (blk 3 j)

/-- The inverse square root of one more than the accumulated degree. -/
def kinv (blk : Fin 4 → γ → ι) (A : ι → ι → EReal) (i : ι) : EReal := Ideal.rsqrt (accDeg blk A i + 1)

/-- The projected column scaled by the inverse square roots. -/
def kcol (blk : Fin 4 → γ → ι) (A : ι → ι → EReal) (xw : ι → EReal) (k : ι) : EReal := xw k * kinv blk A k

/-- The row accumulated run by run, plus the node's own scaled entry, scaled once more. -/
def krow (blk : Fin 4 → γ → ι) (A : ι → ι → EReal) (xw : ι → EReal) (i : ι) : EReal :=
  (((((0 + ∑ j, A i (blk 0 j) * kcol blk A xw (blk 0 j)) + ∑ j, A i (blk 1 j) * kcol blk A xw (blk 1 j))
      + ∑ j, A i (blk 2 j) * kcol blk A xw (blk 2 j)) + ∑ j, A i (blk 3 j) * kcol blk A xw (blk 3 j))
    + kcol blk A xw i) * kinv blk A i

/-- `1 / √(0 + ∑ₖ (A i k + I i k))`. -/
def rinv (A : ι → ι → EReal) (i : ι) : EReal := Ideal.div 1 (Ideal.sqrt (0 + ∑ k, (A i k + eye i k)))

/-- `∑ₖ ((d i * (A i k + I i k)) * d k) * xw k`. -/
def rrow (A : ι → ι → EReal) (xw : ι → EReal) (i : ι) : EReal :=
  ∑ k, ((rinv A i * (A i k + eye i k)) * rinv A k) * xw k

/-- The coercion of the reals into the extended reals commutes with finite sums. -/
theorem coe_sum {α : Type} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum over all nodes is the sum of the sums over the four runs. -/
theorem sum_blocks {M : Type} [AddCommMonoid M] (blk : Fin 4 → γ → ι)
    (hblk : Function.Bijective fun p : Fin 4 × γ => blk p.1 p.2) (g : ι → M) :
    (((∑ j, g (blk 0 j)) + ∑ j, g (blk 1 j)) + ∑ j, g (blk 2 j)) + ∑ j, g (blk 3 j) = ∑ k, g k := by
  rw [← Function.Bijective.sum_comp hblk g, Fintype.sum_prod_type, Fin.sum_univ_four]

/-- The identity in the reals: distributivity, and the identity matrix picks out the node's own term. -/
theorem real_law (a x r : ι → ℝ) (i : ι) :
    (∑ k, a k * (x k * r k) + x i * r i) * r i
      = ∑ k, ((r i * (a k + if i = k then 1 else 0)) * r k) * x k := by
  have h : ∀ k, ((r i * (a k + if i = k then 1 else 0)) * r k) * x k
      = (a k * (x k * r k)) * r i + if i = k then x k * r k * r i else 0 := by
    intro k; split_ifs <;> ring
  simp only [h, Finset.sum_add_distrib, Finset.sum_ite_eq, Finset.mem_univ, if_true, ← Finset.sum_mul]
  ring

/-- The identity matrix's entry is a real. -/
theorem eye_coe (i k : ι) : eye i k = (((if i = k then 1 else 0 : ℝ)) : EReal) := by
  unfold eye; split_ifs <;> simp

/-- The two arrangements agree where every entry is finite and every row sum of `A + I` is positive. -/
theorem krow_eq_rrow (blk : Fin 4 → γ → ι) (hblk : Function.Bijective fun p : Fin 4 × γ => blk p.1 p.2)
    (A : ι → ι → EReal) (xw : ι → EReal) (hA : ∀ i k, ∃ a : ℝ, A i k = (a : EReal)) (hxw : ∀ k, ∃ x : ℝ, xw k = (x : EReal))
    (hpos : ∀ i, 0 < 0 + ∑ k, (A i k + eye i k)) (i : ι) :
    krow blk A xw i = rrow A xw i := by
  classical
  choose a ha using hA
  choose x hx using hxw
  obtain rfl : A = fun i k => (a i k : EReal) := by funext i k; exact ha i k
  obtain rfl : xw = fun k => (x k : EReal) := by funext k; exact hx k
  -- the row sums of `A + I` are real, and positive
  have hD : ∀ i, (0 : EReal) + ∑ k, ((a i k : EReal) + eye i k) = (((∑ k, a i k) + 1 : ℝ) : EReal) := by
    intro i
    simp only [eye_coe, ← EReal.coe_add, ← coe_sum, zero_add, Finset.sum_add_distrib, Finset.sum_ite_eq,
      Finset.mem_univ, if_true]
  have hDpos : ∀ i, 0 < (∑ k, a i k) + 1 := by
    intro i; have h := hpos i; rw [hD i] at h; exact_mod_cast h
  -- both inverse square roots are the real `(√D)⁻¹`
  have hkinv : ∀ i, kinv blk (fun i k => (a i k : EReal)) i = (((Real.sqrt ((∑ k, a i k) + 1))⁻¹ : ℝ) : EReal) := by
    intro i
    unfold kinv accDeg
    rw [zero_add, sum_blocks blk hblk (fun k => (a i k : EReal)), ← coe_sum, ← EReal.coe_one, ← EReal.coe_add,
      Ideal.rsqrt_coe, if_neg (not_lt.2 (hDpos i).le), if_neg (hDpos i).ne']
  have hrinv : ∀ i, rinv (fun i k => (a i k : EReal)) i = (((Real.sqrt ((∑ k, a i k) + 1))⁻¹ : ℝ) : EReal) := by
    intro i
    unfold rinv
    rw [hD i, Ideal.sqrt_coe, if_neg (not_lt.2 (hDpos i).le),
      Ideal.div_coe (Real.sqrt_ne_zero'.2 (hDpos i)), one_mul, one_div]
  -- so both rows are coercions of real expressions, equal by `real_law`
  unfold krow rrow kcol
  simp only [hkinv, hrinv]
  rw [zero_add, sum_blocks blk hblk
    (fun k => (a i k : EReal) * ((x k : EReal) * (((Real.sqrt ((∑ k', a k k') + 1))⁻¹ : ℝ) : EReal)))]
  simp only [eye_coe, ← EReal.coe_mul, ← EReal.coe_add, ← coe_sum]
  exact congrArg _ (real_law (a i) x (fun k => (Real.sqrt ((∑ k', a k k') + 1))⁻¹) i)

/-- A finite sum of products of finite entries is finite (for the projected column `xw k = ∑ f, X k f * W f u`). -/
theorem sum_mul_finite {φ : Type} [Fintype φ] (x w : φ → EReal) (hx : ∀ f, ∃ a : ℝ, x f = (a : EReal)) (hw : ∀ f, ∃ a : ℝ, w f = (a : EReal)) :
    ∃ a : ℝ, ∑ f, x f * w f = (a : EReal) := by
  classical
  choose a ha using hx
  choose b hb using hw
  refine ⟨∑ f, a f * b f, ?_⟩
  simp only [ha, hb, ← EReal.coe_mul, ← coe_sum]

/-- The pattern of `1.0`. -/
theorem ofBits_one_f32 : Ideal.ofBits .f32 0x3F800000#32 = 1 := by
  simp [Ideal.ofBits, Ideal.ieee]
  norm_cast
  norm_num

end Cert.GcnLaw

end
-- ==== Proof.RefValue.lean ====
import proofs.«145517_j41455024340992_2_alg».proof.Proof.RefRead
import proofs.«145517_j41455024340992_2_alg».proof.Proof.LibGcnLaw
import Idealize.ShloMosaic.Lib.ValueIdx
import Idealize.ShloMosaic.Lib.Pipeline.Value
import Idealize.ShloMosaic.Lib.ValueLayout
import Idealize.ShloMosaic.PureOps.Ideal.Laws

/-!
# The reference's value on the extended reals

The reference computes `out = relu (Â (X W))[idx] + b)` with `Ã = A + I`, `d i = 1 / √(∑ₖ Ã i k)` and
`Â i k = (d i * Ã i k) * d k`. Its result term splits in two:

* the CORE, the product `Â (X W)` as an 8192 × 256 array (`refCore`), whose entry `(i, u)` is the normalised row
  `∑ₖ ((d i * (A i k + I i k)) * d k) * (∑_f X k f * W f u)` (`refCore_apply`);
* the TAIL, which gathers rows of the core through the normalised indices, adds the bias and takes the positive part
  (`refTail`).
-/

noncomputable section

namespace Cert.RefValue

open Cert.ReferenceIdeal Cert.ReferenceIdeal.Gen Idealize.ShloMosaic Idealize.ShloMosaic.TcCoe Idealize.SL.Sem Idealize.ShloMosaic.StableHlo

/-- The normalised adjacency times the projected features: `Â (X W)`, as the reference's operations compose it. -/
def refCore (A : FVec Ideal S8192x8192 .f32) (X : FVec Ideal S8192x512 .f32) (W : FVec Ideal S512x256 .f32) :
    FVec Ideal S8192x256 .f32 :=
  Host.dotGeneral (F := Ideal) dot_S8192x8192_S8192x256_S8192x256_1_0_0_1_n_n none (mulf (mulf (broadcastInDim S8192x8192 ![0, 1] bcast_S8192x1_S8192x8192_0_1 (broadcastInDim S8192x1 ![0] bcast_S8192_S8192x1_0 (Host.divf (F := Ideal) (broadcastInDim S8192 ![] bcast_S_S8192 (constant (F := Ideal) S_ .f32 0x3F800000#32)) (Host.sqrt (F := Ideal) (Host.reduceAdd (F := Ideal) (addf A (uitofp (F := Ideal) .f32 (cmpi .eq (addi (iotaInDim S8192x8192 32 0) (broadcastInDim S8192x8192 ![] bcast_S_S8192x8192 (constantI S_ 32 0#32))) (iotaInDim S8192x8192 32 1)))) (constant (F := Ideal) S_ .f32 0x00000000#32) reducesTo_S8192x8192_S8192_d1 h_S_))))) (addf A (uitofp (F := Ideal) .f32 (cmpi .eq (addi (iotaInDim S8192x8192 32 0) (broadcastInDim S8192x8192 ![] bcast_S_S8192x8192 (constantI S_ 32 0#32))) (iotaInDim S8192x8192 32 1))))) (broadcastInDim S8192x8192 ![0, 1] bcast_S1x8192_S8192x8192_0_1 (broadcastInDim S1x8192 ![1] bcast_S8192_S1x8192_1 (Host.divf (F := Ideal) (broadcastInDim S8192 ![] bcast_S_S8192 (constant (F := Ideal) S_ .f32 0x3F800000#32)) (Host.sqrt (F := Ideal) (Host.reduceAdd (F := Ideal) (addf A (uitofp (F := Ideal) .f32 (cmpi .eq (addi (iotaInDim S8192x8192 32 0) (broadcastInDim S8192x8192 ![] bcast_S_S8192x8192 (constantI S_ 32 0#32))) (iotaInDim S8192x8192 32 1)))) (constant (F := Ideal) S_ .f32 0x00000000#32) reducesTo_S8192x8192_S8192_d1 h_S_)))))) (Host.dotGeneral (F := Ideal) dot_S8192x512_S512x256_S8192x256_1_0_0_1_n_n none X W)

/-- Rows of `O` gathered through the indices (a negative index counted from the end), plus the bias, positive part. -/
def refTail (O : FVec Ideal S8192x256 .f32) (idx : IVec S4096x1 32) (b : FVec Ideal S256 .f32) : FVec Ideal S4096x256 .f32 :=
  maximumf (addf (Host.gather gather_S8192x256_S4096x1_S4096x256_1_0_n_n_0_1_1256 O (broadcastInDim S4096x1 ![0] bcast_S4096_S4096x1_0 (select (cmpi .slt (shapeCast _ idx shapeCasts_S4096x1_S4096) (broadcastInDim S4096 ![] bcast_S_S4096 (constantI S_ 32 0#32))) (addi (shapeCast _ idx shapeCasts_S4096x1_S4096) (broadcastInDim S4096 ![] bcast_S_S4096 (constantI S_ 32 8192#32))) (shapeCast _ idx shapeCasts_S4096x1_S4096)))) (broadcastInDim S4096x256 ![0, 1] bcast_S1x256_S4096x256_0_1 (broadcastInDim S1x256 ![1] bcast_S256_S1x256_1 b))) (broadcastInDim S4096x256 ![] bcast_S_S4096x256 (constant (F := Ideal) S_ .f32 0x00000000#32))

/-- The reference's result term is the tail of the core. -/
theorem run_term_eq (A : FVec Ideal S8192x8192 .f32) (idx : IVec S4096x1 32) (X : FVec Ideal S8192x512 .f32)
    (W : FVec Ideal S512x256 .f32) (b : FVec Ideal S256 .f32) :
    maximumf (addf (Host.gather gather_S8192x256_S4096x1_S4096x256_1_0_n_n_0_1_1256 (Host.dotGeneral (F := Ideal) dot_S8192x8192_S8192x256_S8192x256_1_0_0_1_n_n none (mulf (mulf (broadcastInDim S8192x8192 ![0, 1] bcast_S8192x1_S8192x8192_0_1 (broadcastInDim S8192x1 ![0] bcast_S8192_S8192x1_0 (Host.divf (F := Ideal) (broadcastInDim S8192 ![] bcast_S_S8192 (constant (F := Ideal) S_ .f32 0x3F800000#32)) (Host.sqrt (F := Ideal) (Host.reduceAdd (F := Ideal) (addf A (uitofp (F := Ideal) .f32 (cmpi .eq (addi (iotaInDim S8192x8192 32 0) (broadcastInDim S8192x8192 ![] bcast_S_S8192x8192 (constantI S_ 32 0#32))) (iotaInDim S8192x8192 32 1)))) (constant (F := Ideal) S_ .f32 0x00000000#32) reducesTo_S8192x8192_S8192_d1 h_S_))))) (addf A (uitofp (F := Ideal) .f32 (cmpi .eq (addi (iotaInDim S8192x8192 32 0) (broadcastInDim S8192x8192 ![] bcast_S_S8192x8192 (constantI S_ 32 0#32))) (iotaInDim S8192x8192 32 1))))) (broadcastInDim S8192x8192 ![0, 1] bcast_S1x8192_S8192x8192_0_1 (broadcastInDim S1x8192 ![1] bcast_S8192_S1x8192_1 (Host.divf (F := Ideal) (broadcastInDim S8192 ![] bcast_S_S8192 (constant (F := Ideal) S_ .f32 0x3F800000#32)) (Host.sqrt (F := Ideal) (Host.reduceAdd (F := Ideal) (addf A (uitofp (F := Ideal) .f32 (cmpi .eq (addi (iotaInDim S8192x8192 32 0) (broadcastInDim S8192x8192 ![] bcast_S_S8192x8192 (constantI S_ 32 0#32))) (iotaInDim S8192x8192 32 1)))) (constant (F := Ideal) S_ .f32 0x00000000#32) reducesTo_S8192x8192_S8192_d1 h_S_)))))) (Host.dotGeneral (F := Ideal) dot_S8192x512_S512x256_S8192x256_1_0_0_1_n_n none X W)) (broadcastInDim S4096x1 ![0] bcast_S4096_S4096x1_0 (select (cmpi .slt (shapeCast _ idx shapeCasts_S4096x1_S4096) (broadcastInDim S4096 ![] bcast_S_S4096 (constantI S_ 32 0#32))) (addi (shapeCast _ idx shapeCasts_S4096x1_S4096) (broadcastInDim S4096 ![] bcast_S_S4096 (constantI S_ 32 8192#32))) (shapeCast _ idx shapeCasts_S4096x1_S4096)))) (broadcastInDim S4096x256 ![0, 1] bcast_S1x256_S4096x256_0_1 (broadcastInDim S1x256 ![1] bcast_S256_S1x256_1 b))) (broadcastInDim S4096x256 ![] bcast_S_S4096x256 (constant (F := Ideal) S_ .f32 0x00000000#32))
      = refTail (refCore A X W) idx b := rfl

/-- The core is the reference's second `dot_general` stage. -/
theorem refCore_eq_val (A : FVec Ideal S8192x8192 .f32) (X : FVec Ideal S8192x512 .f32) (W : FVec Ideal S512x256 .f32) :
    refCore A X W = Read.val_main_v18 (F := Ideal) A X W := rfl

/-- Every weakly fair execution of the reference ends with its result at the tail of the core of the arguments, the
    arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = refTail (refCore (m ((c.tc : Thread nD τ).loc main_arg0)) (m ((c.tc : Thread nD τ).loc main_arg2)) (m ((c.tc : Thread nD τ).loc main_arg3)))
            (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

open Idealize.ShloMosaic.ValueIdx Cert.GcnLaw

/-! ## The core read at an index -/

/-- The identity matrix: the indicator of `row + 0 = column` on the 32-bit words of the coordinates (both below
    `2 ^ 32`, so equal words are equal coordinates), converted to a float. -/
theorem eye_entry (i k : Fin 8192) : Read.val_main_v5 (F := Ideal) (ix2 i k) = eye i k := by
  rw [Read.val_main_v5_apply, Read.val_main_v4_apply, Read.val_main_v3_apply, Read.val_main_v2_apply,
    Read.val_main_c_apply, Read.val_main_v0_apply, Read.val_main_v1_apply]
  have h : IntOp.cmpi .eq (IntOp.addi (BitVec.ofNat 32 i.val) 0#32) (BitVec.ofNat 32 k.val) = if i = k then 1#1 else 0#1 := by
    unfold IntOp.cmpi IntOp.addi
    by_cases hik : i = k
    · subst hik; simp
    · rw [if_neg hik]
      have hne : ¬ (BitVec.ofNat 32 i.val = BitVec.ofNat 32 k.val) := by
        intro h
        apply hik
        apply Fin.ext
        have h2 := congrArg BitVec.toNat h
        have hi := i.isLt
        have hk := k.isLt
        simp at h2
        omega
      simp [beq_eq_false_iff_ne.mpr hne]
  show (((IntOp.cmpi .eq (IntOp.addi (BitVec.ofNat 32 i.val) 0#32) (BitVec.ofNat 32 k.val)).toNat : ℝ) : EReal) = eye i k
  rw [h]
  unfold eye
  by_cases hik : i = k
  · rw [if_pos hik, if_pos hik]; simp
  · rw [if_neg hik, if_neg hik]; simp

/-- `Ã = A + I` at an entry. -/
theorem adj_entry (A : FVec Ideal S8192x8192 .f32) (i k : Fin 8192) :
    Read.val_main_v6 (F := Ideal) A (ix2 i k) = A (ix2 i k) + eye i k := by
  rw [Read.val_main_v6_apply, eye_entry]
  rfl

/-- The row sum of `Ã`, from zero. -/
theorem deg_entry (A : FVec Ideal S8192x8192 .f32) (i : Fin 8192) :
    Read.val_main_v7 (F := Ideal) A (ix1 i) = 0 + ∑ k : Fin 8192, (A (ix2 i k) + eye i k) := by
  rw [Read.val_main_v7_apply, Read.val_main_cst_apply, Ideal.ofBits_def, Ideal.ofBits_zero_f32]
  refine congrArg (0 + ·) (Finset.sum_congr rfl fun k _ => ?_)
  have e : Read.idx_main_v7 (ix1 i) k = ix2 i k := funext fun a => Fin.ext (by match a with | ⟨0, _⟩ => rfl | ⟨1, _⟩ => rfl)
  rw [e, adj_entry]

/-- `d i = 1 / √(row sum of Ã)`. -/
theorem dinv_entry (A : FVec Ideal S8192x8192 .f32) (i : Fin 8192) :
    Read.val_main_v10 (F := Ideal) A (ix1 i) = rinv (ι := Fin 8192) (fun i k => A (ix2 i k)) i := by
  rw [Read.val_main_v10_apply, Read.val_main_v8_apply, Read.val_main_v9_apply, Read.val_main_cst_0_apply, deg_entry,
    Ideal.hostDivf_def, Ideal.hostUnary_sqrt_def, Ideal.ofBits_def, ofBits_one_f32]
  rfl

/-- `Â i k = (d i * Ã i k) * d k`. -/
theorem ahat_entry (A : FVec Ideal S8192x8192 .f32) (i k : Fin 8192) :
    Read.val_main_v16 (F := Ideal) A (ix2 i k)
      = (rinv (ι := Fin 8192) (fun i k => A (ix2 i k)) i * (A (ix2 i k) + eye i k)) * rinv (ι := Fin 8192) (fun i k => A (ix2 i k)) k := by
  have e1 : Read.idx_main_v11 (Read.idx_main_v12 (ix2 i k)) = ix1 i := funext fun a => Fin.ext (by match a with | ⟨0, _⟩ => rfl)
  have e2 : Read.idx_main_v14 (Read.idx_main_v15 (ix2 i k)) = ix1 k := funext fun a => Fin.ext (by match a with | ⟨0, _⟩ => rfl)
  rw [Read.val_main_v16_apply, Read.val_main_v13_apply, Read.val_main_v12_apply, Read.val_main_v11_apply,
    Read.val_main_v15_apply, Read.val_main_v14_apply, adj_entry, e1, e2, dinv_entry, dinv_entry]
  rfl

/-- The projected features `X W` at an entry. -/
theorem proj_entry (X : FVec Ideal S8192x512 .f32) (W : FVec Ideal S512x256 .f32) (k : Fin 8192) (u : Fin 256) :
    Read.val_main_v17 (F := Ideal) X W (ix2 k u) = ∑ f : Fin 512, X (ix2 k f) * W (ix2 f u) := by
  rw [Read.val_main_v17_apply]
  refine Finset.sum_congr rfl fun f _ => ?_
  have el : Read.lidx_main_v17 (ix2 k u) f = ix2 k f := funext fun a => Fin.ext (by match a with | ⟨0, _⟩ => rfl | ⟨1, _⟩ => rfl)
  have er : Read.ridx_main_v17 (ix2 k u) f = ix2 f u := funext fun a => Fin.ext (by match a with | ⟨0, _⟩ => rfl | ⟨1, _⟩ => rfl)
  rw [el, er]

/-- The core at `(i, u)` is the normalised row `i` against column `u` of the projected features. -/
theorem refCore_apply (A : FVec Ideal S8192x8192 .f32) (X : FVec Ideal S8192x512 .f32) (W : FVec Ideal S512x256 .f32)
    (i : Fin 8192) (u : Fin 256) :
    refCore A X W (ValueIdx.ix2 i u)
      = Cert.GcnLaw.rrow (ι := Fin 8192) (fun i k => A (ValueIdx.ix2 i k))
          (fun k => ∑ f : Fin 512, X (ValueIdx.ix2 k f) * W (ValueIdx.ix2 f u)) i := by
  rw [refCore_eq_val, Read.val_main_v18_apply]
  unfold rrow
  refine Finset.sum_congr rfl fun k _ => ?_
  have el : Read.lidx_main_v18 (ix2 i u) k = ix2 i k := funext fun a => Fin.ext (by match a with | ⟨0, _⟩ => rfl | ⟨1, _⟩ => rfl)
  have er : Read.ridx_main_v18 (ix2 i u) k = ix2 k u := funext fun a => Fin.ext (by match a with | ⟨0, _⟩ => rfl | ⟨1, _⟩ => rfl)
  rw [el, er, ahat_entry, proj_entry]

end Cert.RefValue

end
-- ==== Proof.KI.Tail.lean ====
import proofs.«145517_j41455024340992_2_alg».proof.Proof.Gen.KernelIdeal.Launch
import proofs.«145517_j41455024340992_2_alg».proof.Proof.Gen.KernelIdeal.Regions
import proofs.«145517_j41455024340992_2_alg».proof.Proof.RefValue
import Idealize.ShloMosaic.Lib.StableHlo.Run

/-!
# The host tail after the two kernel regions, read back

After its regions the program gathers rows of the second region's result through the normalised indices (a negative
index counted from the end), adds the bias along the rows and takes the positive part: thirteen operations, then three.
From any contents of the buffers, the last buffer then holds that composed value of the second region's result, the
indices and the bias — the same composition the reference ends with —, and the five arguments are not written.
-/

noncomputable section

namespace Cert.KernelIdeal.Tail

open Idealize.ShloMosaic Idealize.ShloMosaic.TcCoe Idealize.SL.Sem Idealize.ShloMosaic.StableHlo
open Cert.KernelIdeal

/-- After the two host stretches the result buffer holds the tail of the second region's result: its rows gathered
    through the indices, plus the bias, positive part. -/
theorem tail_read (Vv : Valuation τ sig (Elt Ideal)) :
    StableHlo.after (Gen.hostOps2_1 (F := Ideal)) (StableHlo.after (Gen.hostOps2 (F := Ideal)) Vv) (Proc.devRef .tc main_v13)
      = Cert.RefValue.refTail (Vv (Proc.devRef .tc main_v1)) (Vv (Proc.devRef .tc main_arg1)) (Vv (Proc.devRef .tc main_arg4)) := by
  after_results
  rfl

/-- The two host stretches leave argument 0 as it was. -/
theorem arg0_read (Vv : Valuation τ sig (Elt Ideal)) :
    StableHlo.after (Gen.hostOps2_1 (F := Ideal)) (StableHlo.after (Gen.hostOps2 (F := Ideal)) Vv) (Proc.devRef .tc main_arg0)
      = Vv (Proc.devRef .tc main_arg0) :=
  (StableHlo.after_of_writes_sub _ _ Gen.hostOps2_1_writes (by decide)).trans
    (StableHlo.after_of_writes_sub _ _ Gen.hostOps2_writes (by decide))

/-- The two host stretches leave argument 1 as it was. -/
theorem arg1_read (Vv : Valuation τ sig (Elt Ideal)) :
    StableHlo.after (Gen.hostOps2_1 (F := Ideal)) (StableHlo.after (Gen.hostOps2 (F := Ideal)) Vv) (Proc.devRef .tc main_arg1)
      = Vv (Proc.devRef .tc main_arg1) :=
  (StableHlo.after_of_writes_sub _ _ Gen.hostOps2_1_writes (by decide)).trans
    (StableHlo.after_of_writes_sub _ _ Gen.hostOps2_writes (by decide))

/-- The two host stretches leave argument 2 as it was. -/
theorem arg2_read (Vv : Valuation τ sig (Elt Ideal)) :
    StableHlo.after (Gen.hostOps2_1 (F := Ideal)) (StableHlo.after (Gen.hostOps2 (F := Ideal)) Vv) (Proc.devRef .tc main_arg2)
      = Vv (Proc.devRef .tc main_arg2) :=
  (StableHlo.after_of_writes_sub _ _ Gen.hostOps2_1_writes (by decide)).trans
    (StableHlo.after_of_writes_sub _ _ Gen.hostOps2_writes (by decide))

/-- The two host stretches leave argument 3 as it was. -/
theorem arg3_read (Vv : Valuation τ sig (Elt Ideal)) :
    StableHlo.after (Gen.hostOps2_1 (F := Ideal)) (StableHlo.after (Gen.hostOps2 (F := Ideal)) Vv) (Proc.devRef .tc main_arg3)
      = Vv (Proc.devRef .tc main_arg3) :=
  (StableHlo.after_of_writes_sub _ _ Gen.hostOps2_1_writes (by decide)).trans
    (StableHlo.after_of_writes_sub _ _ Gen.hostOps2_writes (by decide))

/-- The two host stretches leave argument 4 as it was. -/
theorem arg4_read (Vv : Valuation τ sig (Elt Ideal)) :
    StableHlo.after (Gen.hostOps2_1 (F := Ideal)) (StableHlo.after (Gen.hostOps2 (F := Ideal)) Vv) (Proc.devRef .tc main_arg4)
      = Vv (Proc.devRef .tc main_arg4) :=
  (StableHlo.after_of_writes_sub _ _ Gen.hostOps2_1_writes (by decide)).trans
    (StableHlo.after_of_writes_sub _ _ Gen.hostOps2_writes (by decide))

end Cert.KernelIdeal.Tail

end
-- ==== Proof.KI.Pieces.lean ====
import proofs.«145517_j41455024340992_2_alg».proof.Proof.KI.R0Data
import proofs.«145517_j41455024340992_2_alg».proof.Proof.KI.R1Data
import Idealize.ShloMosaic.Lib.Pipeline.Value
import Idealize.ShloMosaic.Lib.Tactic

/-!
# What each case of the two kernel bodies leaves, as the bodies' named values

Each case's stores were found as lists of pieces when the body was run; every store writes a whole buffer through the
rectangle at zero offsets, and every load reads a whole buffer, so a list read back is its last store's value, and a load
of what an earlier store left is that store's value. Region 0: the accumulator becomes the previous accumulator (the zero
column at a first block) plus the block's row sums; at a last block the outputs are the inverse square root of one more
than that sum, and the projected features scaled by it. Region 1: the accumulator becomes the previous accumulator (the
zero block at a first block) plus the adjacency block times the scaled projection block; at a last block the output is
that sum plus the node's own scaled rows, scaled by the inverse-square-root column.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The zero offsets of a store of a whole buffer. -/
theorem hz00 : (![0, 0] : Fin 2 → Nat) = fun _ => 0 := funext fun a => by fin_cases a <;> rfl

/-! ## Region 0 -/

/-- A middle column block leaves the accumulator plus the block's row sums. -/
theorem sout0_B_eq (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : ¬cond0_1 i) (x0 : Vec F S1024x2048 .f32) (xs0 : Vec F S1024x1 .f32) :
    sout0_B c i arg2 harg2 arg3 harg3 arg4 harg4 arg5 harg5 arg6 harg6 arg7 harg7 hc0 hc1 x0 xs0 = k0_pay2 xs0 x0 := by
  unfold sout0_B
  rw [View.read_writes_eq_canon _ _ _ (scover0_B c i arg2 harg2 arg3 harg3 arg4 harg4 arg5 harg5 arg6 harg6 arg7 harg7 hc0 hc1 x0 xs0)]
  unfold kernelRun0_B
  dsimp only
  rw [View.canon_unit_zero hz00]
  simp only [View.readAt_eq_ld, harg7.read_unread, harg2.read_unread, harg3.read_unread, harg4.read_unread, View.ld_unit_zero (S := S1024x1) hz00, View.ld_unit_zero (S := S1024x2048) hz00, View.ld_unit_zero (S := S1024x512) hz00, View.ld_unit_zero (S := S512x256) hz00]

/-- A first column block leaves the zero column plus the block's row sums: the zeroed accumulator is read back. -/
theorem sout0_A_eq (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : cond0_0 i) (hc1 : ¬cond0_1 i) (x0 : Vec F S1024x2048 .f32) :
    sout0_A c i arg2 harg2 arg3 harg3 arg4 harg4 arg5 harg5 arg6 harg6 arg7 harg7 hc0 hc1 x0 = k0_pay2 (k0_pay1 (F := F)) x0 := by
  unfold sout0_A
  rw [View.read_writes_eq_canon _ _ _ (scover0_A c i arg2 harg2 arg3 harg3 arg4 harg4 arg5 harg5 arg6 harg6 arg7 harg7 hc0 hc1 x0)]
  unfold kernelRun0_A
  dsimp only
  sl_unfold_words
  rw [View.canon_cons_unit_zero (S := S1024x1) hz00, View.readCov_unit_zero (S := S1024x1) _ hz00]
  simp only [View.readAt_eq_ld, harg7.read_unread, harg2.read_unread, harg3.read_unread, harg4.read_unread, View.ld_unit_zero (S := S1024x1) hz00, View.ld_unit_zero (S := S1024x2048) hz00, View.ld_unit_zero (S := S1024x512) hz00, View.ld_unit_zero (S := S512x256) hz00]

/-- A last column block leaves, in the accumulator, the accumulator plus the block's row sums. -/
theorem sout0_C_eq (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) :
    sout0_C c i arg2 harg2 arg3 harg3 arg4 harg4 arg5 harg5 arg6 harg6 arg7 harg7 hc0 hc1 x0 x1 x2 xs0 = k0_pay2 xs0 x0 := by
  unfold sout0_C
  rw [View.read_writes_eq_canon _ _ _ (scover0_C c i arg2 harg2 arg3 harg3 arg4 harg4 arg5 harg5 arg6 harg6 arg7 harg7 hc0 hc1 x0 x1 x2 xs0)]
  unfold kernelRun0_C
  dsimp only
  sl_unfold_words
  rw [View.canon_unit_zero hz00]
  simp only [View.readAt_eq_ld, harg7.read_unread, harg2.read_unread, harg3.read_unread, harg4.read_unread, View.ld_unit_zero (S := S1024x1) hz00, View.ld_unit_zero (S := S1024x2048) hz00, View.ld_unit_zero (S := S1024x512) hz00, View.ld_unit_zero (S := S512x256) hz00]

/-- … in the first output, the inverse square root of one more than that sum (the sum read back from the accumulator). -/
theorem out0_C_3_eq (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) :
    out0_C_3 c i arg2 harg2 arg3 harg3 arg4 harg4 arg5 harg5 arg6 harg6 arg7 harg7 hc0 hc1 x0 x1 x2 xs0 = k0_pay3 (k0_pay2 xs0 x0) := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz00, View.readCov_unit_zero (S := S1024x1) _ hz00]
  simp only [View.readAt_eq_ld, harg7.read_unread, harg2.read_unread, harg3.read_unread, harg4.read_unread, View.ld_unit_zero (S := S1024x1) hz00, View.ld_unit_zero (S := S1024x2048) hz00, View.ld_unit_zero (S := S1024x512) hz00, View.ld_unit_zero (S := S512x256) hz00]

/-- … and in the second output, the projected feature block scaled by that inverse square root. -/
theorem out0_C_4_eq (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S512x256 .f32) (harg4 : arg4.IsWhole) (arg5 : Memref sig .tc .vmem S1024x1 .f32) (harg5 : arg5.IsWhole) (arg6 : Memref sig .tc .vmem S1024x256 .bf16) (harg6 : arg6.IsWhole) (arg7 : Memref sig .tc .vmem S1024x1 .f32) (harg7 : arg7.IsWhole) (hc0 : ¬cond0_0 i) (hc1 : cond0_1 i) (x0 : Vec F S1024x2048 .f32) (x1 : Vec F S1024x512 .f32) (x2 : Vec F S512x256 .f32) (xs0 : Vec F S1024x1 .f32) :
    out0_C_4 c i arg2 harg2 arg3 harg3 arg4 harg4 arg5 harg5 arg6 harg6 arg7 harg7 hc0 hc1 x0 x1 x2 xs0 = k0_pay4 (k0_pay2 xs0 x0) x1 x2 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz00, View.readCov_unit_zero (S := S1024x1) _ hz00]
  simp only [View.readAt_eq_ld, harg7.read_unread, harg2.read_unread, harg3.read_unread, harg4.read_unread, View.ld_unit_zero (S := S1024x1) hz00, View.ld_unit_zero (S := S1024x2048) hz00, View.ld_unit_zero (S := S1024x512) hz00, View.ld_unit_zero (S := S512x256) hz00]

/-! ## Region 1 -/

/-- Region 1, a middle column block: the accumulator plus the adjacency block (rounded) times the scaled projection block. -/
theorem sout1_B_eq (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S2048x256 .bf16) (xs0 : Vec F S1024x256 .f32) :
    sout1_B c i arg2 harg2 arg3 harg3 arg4 harg4 arg5 harg5 arg6 harg6 arg7 harg7 hc0 hc1 x0 x1 xs0 = k1_pay2 x0 xs0 x1 := by
  unfold sout1_B
  rw [View.read_writes_eq_canon _ _ _ (scover1_B c i arg2 harg2 arg3 harg3 arg4 harg4 arg5 harg5 arg6 harg6 arg7 harg7 hc0 hc1 x0 x1 xs0)]
  unfold kernelRun1_B
  dsimp only
  sl_unfold_words
  rw [View.canon_unit_zero hz00]
  simp only [View.readAt_eq_ld, harg7.read_unread, harg2.read_unread, harg3.read_unread, harg4.read_unread, harg5.read_unread, View.ld_unit_zero (S := S1024x256) hz00, View.ld_unit_zero (S := S1024x2048) hz00, View.ld_unit_zero (S := S2048x256) hz00, View.ld_unit_zero (S := S1024x1) hz00]

/-- Region 1, a first column block: the zero block plus the product: the zeroed accumulator is read back. -/
theorem sout1_A_eq (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S2048x256 .bf16) :
    sout1_A c i arg2 harg2 arg3 harg3 arg4 harg4 arg5 harg5 arg6 harg6 arg7 harg7 hc0 hc1 x0 x1 = k1_pay2 x0 (k1_pay1 (F := F)) x1 := by
  unfold sout1_A
  rw [View.read_writes_eq_canon _ _ _ (scover1_A c i arg2 harg2 arg3 harg3 arg4 harg4 arg5 harg5 arg6 harg6 arg7 harg7 hc0 hc1 x0 x1)]
  unfold kernelRun1_A
  dsimp only
  sl_unfold_words
  rw [View.canon_cons_unit_zero (S := S1024x256) hz00, View.readCov_unit_zero (S := S1024x256) _ hz00]
  simp only [View.readAt_eq_ld, harg7.read_unread, harg2.read_unread, harg3.read_unread, harg4.read_unread, harg5.read_unread, View.ld_unit_zero (S := S1024x256) hz00, View.ld_unit_zero (S := S1024x2048) hz00, View.ld_unit_zero (S := S2048x256) hz00, View.ld_unit_zero (S := S1024x1) hz00]

/-- Region 1, a last column block leaves, in the accumulator, the accumulator plus the product. -/
theorem sout1_C_eq (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) :
    sout1_C c i arg2 harg2 arg3 harg3 arg4 harg4 arg5 harg5 arg6 harg6 arg7 harg7 hc0 hc1 x0 x1 x2 x3 xs0 = k1_pay2 x0 xs0 x1 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz00]
  simp only [View.readAt_eq_ld, harg7.read_unread, harg2.read_unread, harg3.read_unread, harg4.read_unread, harg5.read_unread, View.ld_unit_zero (S := S1024x256) hz00, View.ld_unit_zero (S := S1024x2048) hz00, View.ld_unit_zero (S := S2048x256) hz00, View.ld_unit_zero (S := S1024x1) hz00]

/-- … and in the output, that sum (read back from the accumulator) plus the node's own scaled rows, scaled by the
    inverse-square-root column. -/
theorem out1_C_4_eq (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x2048 .f32) (x1 : Vec F S2048x256 .bf16) (x2 : Vec F S1024x256 .bf16) (x3 : Vec F S1024x1 .f32) (xs0 : Vec F S1024x256 .f32) :
    out1_C_4 c i arg2 harg2 arg3 harg3 arg4 harg4 arg5 harg5 arg6 harg6 arg7 harg7 hc0 hc1 x0 x1 x2 x3 xs0 = k1_pay3 (k1_pay2 x0 xs0 x1) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz00, View.readCov_unit_zero (S := S1024x256) _ hz00]
  simp only [View.readAt_eq_ld, harg7.read_unread, harg2.read_unread, harg3.read_unread, harg4.read_unread, harg5.read_unread, View.ld_unit_zero (S := S1024x256) hz00, View.ld_unit_zero (S := S1024x2048) hz00, View.ld_unit_zero (S := S2048x256) hz00, View.ld_unit_zero (S := S1024x1) hz00]

end Cert.KernelIdeal.Gen

end
-- ==== Proof.KI.Spec.lean ====
import proofs.«145517_j41455024340992_2_alg».proof.KernelIdeal
import proofs.«145517_j41455024340992_2_alg».proof.Proof.LibGcnLaw
import Idealize.ShloMosaic.Lib.ValueIdx

/-!
# What the two kernel regions leave in their output arrays, as functions of the arrays they read

Nodes `Fin 8192` in four runs of 2048 (`blk`). From the adjacency `A`, the features `X` and the weights `W`:
the first region leaves the column of inverse square roots of one more than the degree (`dinvG`) and the projected
features scaled by it (`yG`); the second, from `A`, a scaled projection `y` and a column `d`, leaves
`((∑ₖ A i k * y k u, run by run) + y i u) * d i` (`out1G`); composed, the layer's rows (`outG`).
-/

noncomputable section

namespace Cert.KernelIdeal.Spec

open Idealize.ShloMosaic Idealize.ShloMosaic.ValueIdx Cert.KernelIdeal Cert.GcnLaw

/-- Node `j` of run `b`. -/
def blk (b : Fin 4) (j : Fin 2048) : Fin 8192 := ⟨2048 * b.val + j.val, by omega⟩

theorem blk_bij : Function.Bijective fun p : Fin 4 × Fin 2048 => blk p.1 p.2 := by
  constructor
  · rintro ⟨b, j⟩ ⟨b', j'⟩ h
    have h' : 2048 * b.val + j.val = 2048 * b'.val + j'.val := congrArg Fin.val h
    have hb : b = b' := Fin.ext (by omega)
    have hj : j = j' := Fin.ext (by omega)
    rw [hb, hj]
  · intro i
    exact ⟨(⟨i.val / 2048, by omega⟩, ⟨i.val % 2048, Nat.mod_lt _ (by norm_num)⟩), Fin.ext (by simp only [blk]; omega)⟩

/-- The adjacency as a matrix over the nodes. -/
def adjM (A : S8192x8192.Idx → EReal) : Fin 8192 → Fin 8192 → EReal := fun i k => A (ix2 i k)

/-- Column `u` of the projected features `X W`. -/
def proj (X : S8192x512.Idx → EReal) (W : S512x256.Idx → EReal) (u : Fin 256) : Fin 8192 → EReal :=
  fun k => ∑ f : Fin 512, X (ix2 k f) * W (ix2 f u)

/-- The column of inverse square roots the first region leaves. -/
def dinvG (A : S8192x8192.Idx → EReal) : S8192x1.Idx → EReal := fun j => kinv blk (adjM A) (j 0)

/-- The scaled projection the first region leaves. -/
def yG (A : S8192x8192.Idx → EReal) (X : S8192x512.Idx → EReal) (W : S512x256.Idx → EReal) : S8192x256.Idx → EReal :=
  fun j => kcol blk (adjM A) (proj X W (j 1)) (j 0)

/-- What the second region leaves, from the arrays it reads. -/
def out1G (A : S8192x8192.Idx → EReal) (y : S8192x256.Idx → EReal) (d : S8192x1.Idx → EReal) : S8192x256.Idx → EReal :=
  fun j => (((((0 + ∑ k : Fin 2048, A (ix2 (j 0) (blk 0 k)) * y (ix2 (blk 0 k) (j 1)))
      + ∑ k : Fin 2048, A (ix2 (j 0) (blk 1 k)) * y (ix2 (blk 1 k) (j 1)))
      + ∑ k : Fin 2048, A (ix2 (j 0) (blk 2 k)) * y (ix2 (blk 2 k) (j 1)))
      + ∑ k : Fin 2048, A (ix2 (j 0) (blk 3 k)) * y (ix2 (blk 3 k) (j 1)))
    + y (ix2 (j 0) (j 1))) * d (ix2 (j 0) (0 : Fin 1))

/-- The layer's rows before the gather. -/
def outG (A : S8192x8192.Idx → EReal) (X : S8192x512.Idx → EReal) (W : S512x256.Idx → EReal) : S8192x256.Idx → EReal :=
  fun j => krow blk (adjM A) (proj X W (j 1)) (j 0)

/-- The second region run on what the first leaves computes the layer's rows. -/
theorem out1G_comp (A : S8192x8192.Idx → EReal) (X : S8192x512.Idx → EReal) (W : S512x256.Idx → EReal) :
    out1G A (yG A X W) (dinvG A) = outG A X W := by
  funext j
  simp only [out1G, outG, yG, dinvG, krow, adjM]

end Cert.KernelIdeal.Spec

end
-- ==== Proof.KI.Payloads.lean ====
import proofs.«145517_j41455024340992_2_alg».proof.Proof.Gen.KernelIdeal.Skeleton
import proofs.«145517_j41455024340992_2_alg».proof.Proof.LibGcnLaw
import Idealize.ShloMosaic.Lib.ValueIdx
import Idealize.ShloMosaic.Lib.Pipeline.Value
import Idealize.ShloMosaic.Lib.ValueLayout
import Idealize.ShloMosaic.PureOps.Ideal.Laws

/-!
# The kernel's stored values at an index, on the extended reals

The first kernel accumulates the row sums of the adjacency block by block, takes `1 / √(sum + 1)` and scales the
projected features `X W` row by row; the second accumulates `A · y` block by block and scales `(acc + y)` row by
row. Each stored vector is read here at one entry `(p, u)` of its 1024-row block.
-/

noncomputable section

namespace Cert.KernelIdeal.Pay

open Cert.KernelIdeal Cert.KernelIdeal.Gen Idealize.ShloMosaic Idealize.SL.Sem Idealize.ShloMosaic.ValueIdx

/-! ## Layout operations of a column, read at an index -/

section Layout
variable {α : Type}

/-- A vector `[a]` cast to the column `[a, 1]` reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-! ## The row sum and the two products -/

/-- The sum along the columns of a `1024 × 2048` block, at row `p`. -/
theorem rowsum_apply (v : FVec Ideal S1024x2048 .f32) (hφ : FKind.Formats .f32)
    (hacc : (0x00000000#32 : BitVec 32) = FKind.add.neutral .f32 hφ) (p : Fin 1024) :
    multiReduction .add [1] S1024 v 0x00000000#32 reduces_S1024x2048_S1024 hφ hacc (ix1 p) = ∑ j : Fin 2048, v (ix2 p j) := by
  refine (Ideal.multiReduction_add_single v 0x00000000#32 reduces_S1024x2048_S1024 hφ hacc (ix1 p)).trans ?_
  refine Finset.sum_congr rfl fun j _ => congrArg v ?_
  exact funext fun a => Fin.ext (by match a with | ⟨0, _⟩ => rfl | ⟨1, _⟩ => rfl)

theorem proj_dot_apply_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem proj_dot_apply_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The `1024 × 512` by `512 × 256` product into the zero accumulator, at `(p, u)`. -/
theorem proj_dot_apply (l : FVec Ideal S1024x512 .bf16) (r : FVec Ideal S512x256 .bf16) (p : Fin 1024) (u : Fin 256) :
    matmul dot_S1024x512_S512x256_S1024x256_1_0_0_1_n_n none l r (constant (F := Ideal) S1024x256 .f32 0x00000000#32) (ix2 p u)
      = ∑ k : Fin 512, l (ix2 p k) * r (ix2 k u) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p u) ((contrEquiv1 dot_S1024x512_S512x256_S1024x256_1_0_0_1_n_n 512 rfl rfl).symm k) = ix2 p k := funext fun a => Fin.ext (by
    match a with
    | ⟨0, _⟩ => exact proj_dot_apply_l0 _ _
    | ⟨1, _⟩ => exact (dot_S1024x512_S512x256_S1024x256_1_0_0_1_n_n.lhsIdx_val_of_single rfl _ _).trans hk)
  have er : dot_S1024x512_S512x256_S1024x256_1_0_0_1_n_n.rhsIdx (ix2 p u) ((contrEquiv1 dot_S1024x512_S512x256_S1024x256_1_0_0_1_n_n 512 rfl rfl).symm k) = ix2 k u := funext fun a => Fin.ext (by
    match a with
    | ⟨0, _⟩ => exact (dot_S1024x512_S512x256_S1024x256_1_0_0_1_n_n.rhsIdx_val_of_single rfl _ _).trans hk
    | ⟨1, _⟩ => exact proj_dot_apply_r1 _ _)
  rw [el, er]

theorem adj_dot_apply_l0 (i : S1024x256.Idx) (q : dot_S1024x2048_S2048x256_S1024x256_1_0_0_1_n_n.contr.Idx) : (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem adj_dot_apply_r1 (i : S1024x256.Idx) (q : dot_S1024x2048_S2048x256_S1024x256_1_0_0_1_n_n.contr.Idx) : (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The `1024 × 2048` by `2048 × 256` product into the zero accumulator, at `(p, u)`. -/
theorem adj_dot_apply (l : FVec Ideal S1024x2048 .bf16) (r : FVec Ideal S2048x256 .bf16) (p : Fin 1024) (u : Fin 256) :
    matmul dot_S1024x2048_S2048x256_S1024x256_1_0_0_1_n_n none l r (constant (F := Ideal) S1024x256 .f32 0x00000000#32) (ix2 p u)
      = ∑ k : Fin 2048, l (ix2 p k) * r (ix2 k u) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p u) ((contrEquiv1 dot_S1024x2048_S2048x256_S1024x256_1_0_0_1_n_n 2048 rfl rfl).symm k) = ix2 p k := funext fun a => Fin.ext (by
    match a with
    | ⟨0, _⟩ => exact adj_dot_apply_l0 _ _
    | ⟨1, _⟩ => exact (dot_S1024x2048_S2048x256_S1024x256_1_0_0_1_n_n.lhsIdx_val_of_single rfl _ _).trans hk)
  have er : dot_S1024x2048_S2048x256_S1024x256_1_0_0_1_n_n.rhsIdx (ix2 p u) ((contrEquiv1 dot_S1024x2048_S2048x256_S1024x256_1_0_0_1_n_n 2048 rfl rfl).symm k) = ix2 k u := funext fun a => Fin.ext (by
    match a with
    | ⟨0, _⟩ => exact (dot_S1024x2048_S2048x256_S1024x256_1_0_0_1_n_n.rhsIdx_val_of_single rfl _ _).trans hk
    | ⟨1, _⟩ => exact adj_dot_apply_r1 _ _)
  rw [el, er]

/-! ## The stored values -/

/-- The degree accumulator starts at zero. -/
theorem pay0_1 (p : Fin 1024) (z : Fin 1) : k0_pay1 (F := Ideal) (ix2 p z) = 0 := by
  unfold k0_pay1
  rw [shapeCast_self]
  show Ideal.ofBits .f32 0x00000000#32 = 0
  exact Ideal.ofBits_zero_f32

/-- The degree accumulator gains the block's row sum. -/
theorem pay0_2 (v3 : Vec Ideal S1024x1 .f32) (v4 : Vec Ideal S1024x2048 .f32) (p : Fin 1024) (z : Fin 1) :
    k0_pay2 v3 v4 (ix2 p z) = v3 (ix2 p z) + ∑ j : Fin 2048, v4 (ix2 p j) := by
  unfold k0_pay2
  rw [shapeCast_self]
  show v3 (ix2 p z) + shapeCast S1024x1 (multiReduction (F := Ideal) .add [1] S1024 v4 0x00000000#32 reduces_S1024x2048_S1024 (.inl rfl) rfl) shapeCasts_S1024_S1024x1 (ix2 p z) = _
  rw [shapeCast_a_a1_apply]
  exact congrArg (v3 (ix2 p z) + ·) (rowsum_apply v4 _ _ p)

/-- The inverse square root of the accumulated degree plus one. -/
theorem pay0_3 (v14 : Vec Ideal S1024x1 .f32) (p : Fin 1024) (z : Fin 1) :
    k0_pay3 v14 (ix2 p z) = Ideal.rsqrt (v14 (ix2 p z) + 1) := by
  unfold k0_pay3
  show Ideal.rsqrt (v14 (ix2 p z) + Ideal.ofBits .f32 0x3F800000#32) = _
  rw [Cert.GcnLaw.ofBits_one_f32]

/-- The projected features scaled row by row by the inverse square root. -/
theorem pay0_4 (v14 : Vec Ideal S1024x1 .f32) (v19 : Vec Ideal S1024x512 .f32) (v21 : Vec Ideal S512x256 .f32)
    (p : Fin 1024) (u : Fin 256) :
    k0_pay4 v14 v19 v21 (ix2 p u) = (∑ f : Fin 512, v19 (ix2 p f) * v21 (ix2 f u)) * Ideal.rsqrt (v14 (ix2 p 0) + 1) := by
  unfold k0_pay4
  show matmul dot_S1024x512_S512x256_S1024x256_1_0_0_1_n_n none (truncf .bf16 v19 bitsLt_bf16_f32) (truncf .bf16 v21 bitsLt_bf16_f32)
        (constant (F := Ideal) S1024x256 .f32 0x00000000#32) (ix2 p u)
      * broadcastTo S1024x256 (k0_pay3 v14) broadcasts_S1024x1_S1024x256 (ix2 p u) = _
  rw [proj_dot_apply, broadcastTo_a1_ab_apply, pay0_3]
  rfl

/-- The product accumulator starts at zero. -/
theorem pay1_1 (p : Fin 1024) (u : Fin 256) : k1_pay1 (F := Ideal) (ix2 p u) = 0 := by
  unfold k1_pay1
  rw [shapeCast_self]
  show Ideal.ofBits .f32 0x00000000#32 = 0
  exact Ideal.ofBits_zero_f32

/-- The product accumulator gains the block's product. -/
theorem pay1_2 (v3 : Vec Ideal S1024x2048 .f32) (v5 : Vec Ideal S1024x256 .f32) (v6 : Vec Ideal S2048x256 .bf16)
    (p : Fin 1024) (u : Fin 256) :
    k1_pay2 v3 v5 v6 (ix2 p u) = v5 (ix2 p u) + ∑ j : Fin 2048, v3 (ix2 p j) * v6 (ix2 j u) := by
  unfold k1_pay2
  rw [shapeCast_self, shapeCast_self]
  show v5 (ix2 p u) + matmul dot_S1024x2048_S2048x256_S1024x256_1_0_0_1_n_n none (truncf .bf16 v3 bitsLt_bf16_f32) v6
        (constant (F := Ideal) S1024x256 .f32 0x00000000#32) (ix2 p u) = _
  rw [adj_dot_apply]
  rfl

/-- The accumulated product plus the node's own scaled entry, scaled row by row. -/
theorem pay1_3 (v16 : Vec Ideal S1024x256 .f32) (v17 : Vec Ideal S1024x256 .bf16) (v21 : Vec Ideal S1024x1 .f32)
    (p : Fin 1024) (u : Fin 256) :
    k1_pay3 v16 v17 v21 (ix2 p u) = (v16 (ix2 p u) + v17 (ix2 p u)) * v21 (ix2 p 0) := by
  unfold k1_pay3
  rw [shapeCast_self, shapeCast_self]
  show (v16 (ix2 p u) + v17 (ix2 p u)) * broadcastTo S1024x256 v21 broadcasts_S1024x1_S1024x256 (ix2 p u) = _
  rw [broadcastTo_a1_ab_apply]

end Cert.KernelIdeal.Pay

end
-- ==== Proof.KI.R0Value.lean ====
import proofs.«145517_j41455024340992_2_alg».proof.Proof.KI.R0Data
import proofs.«145517_j41455024340992_2_alg».proof.Proof.KI.Pieces
import proofs.«145517_j41455024340992_2_alg».proof.Proof.KI.Spec
import proofs.«145517_j41455024340992_2_alg».proof.Proof.KI.Payloads
import Idealize.ShloMosaic.Lib.Pipeline.Value
import Idealize.ShloMosaic.Lib.ValueIdx

/-!
# What the first kernel region leaves in its two output arrays

The region visits 32 points `t = 4 r + k`: row block `r` (1024 rows) and column block `k` (2048 columns, the nodes of
run `k`). Along a row block the accumulator gathers the row sums of the adjacency run by run; at `k = 3` the column
`1 / √(degree + 1)` and the projected features scaled by it are written back to rows `1024 r …` of the two outputs.
-/

noncomputable section

namespace Cert.KernelIdeal.R0V

open Idealize.ShloMosaic Idealize.ShloMosaic.TcCoe Idealize.SL.Sem Idealize.ShloMosaic.ValueIdx
open Idealize.ShloMosaic.Pipeline (Dat)
open Cert.KernelIdeal Cert.KernelIdeal.Gen Cert.GcnLaw

variable (V : (c : Dev nD) → (b : Ref sig .tc) → Buf (Elt Ideal) ((c : Thread nD τ).loc b))

/-! ## The blocks at an index -/

/-- The block indices of the five windows at point `t = 4 r + k`: row block `r`, column block `k`. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

theorem val_lt (t : Fin cfg0.N) : t.val < 32 := by
  have h := t.isLt
  have e : cfg0.N = 32 := N_0
  omega

/-- Row `p` of row block `r`. -/
def rowOf (r : Fin 8) (p : Fin 1024) : Fin 8192 := ⟨1024 * r.val + p.val, by have := p.isLt; have := r.isLt; omega⟩

/-- The adjacency block at point `t`: rows of row block `t / 4`, the nodes of run `t % 4`. -/
theorem iblk0_0_apply (c : Dev nD) (t : Fin cfg0.N) (r : Fin 8) (k : Fin 4) (hr : r.val = t.val / 4) (hk : k.val = t.val % 4)
    (p : Fin 1024) (j : Fin 2048) :
    (iblk0 V c 0 t : Vec Ideal S1024x2048 .f32) (ix2 p j) = (V c main_arg0 : S8192x8192.Idx → EReal) (ix2 (rowOf r p) (Spec.blk k j)) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * p.val = 1024 * r.val + p.val; rw [e0, hr]; omega
  | ⟨1, _⟩ => show win0_0.index t (1 : Fin 2) * 2048 + 1 * j.val = 2048 * k.val + j.val; rw [e1, hk]; omega

/-- The feature block at point `t`: the rows of row block `t / 4`. -/
theorem iblk0_1_apply (c : Dev nD) (t : Fin cfg0.N) (r : Fin 8) (hr : r.val = t.val / 4) (p : Fin 1024) (f : Fin 512) :
    (iblk0 V c 1 t : Vec Ideal S1024x512 .f32) (ix2 p f) = (V c main_arg2 : S8192x512.Idx → EReal) (ix2 (rowOf r p) f) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 1024 + 1 * p.val = 1024 * r.val + p.val; rw [e0, hr]; omega
  | ⟨1, _⟩ => show win0_1.index t (1 : Fin 2) * 512 + 1 * f.val = f.val; rw [e1]; omega

/-- The weight block at every point: the whole array. -/
theorem iblk0_2_apply (c : Dev nD) (t : Fin cfg0.N) (f : Fin 512) (u : Fin 256) :
    (iblk0 V c 2 t : Vec Ideal S512x256 .f32) (ix2 f u) = (V c main_arg3 : S512x256.Idx → EReal) (ix2 f u) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t (0 : Fin 2) * 512 + 1 * f.val = f.val; rw [e0]; omega
  | ⟨1, _⟩ => show win0_2.index t (1 : Fin 2) * 256 + 1 * u.val = u.val; rw [e1]; omega

/-! ## The three cases, as vectors -/

theorem acc_A (c : Dev nD) (t : Fin cfg0.N) (h0 : t.val % 4 = 0) (h1 : ¬t.val % 4 = 3) :
    (outsAt0 V c t.val t.isLt).2.2 = k0_pay2 (k0_pay1 (F := Ideal)) (iblk0 V c 0 t) := by
  rw [outsAt0_A V c t h0 h1]
  dsimp only
  exact sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (iblk0 V c 0 t)

theorem acc_B (c : Dev nD) (t : Fin cfg0.N) (h0 : ¬t.val % 4 = 0) (h1 : ¬t.val % 4 = 3) :
    (outsAt0 V c t.val t.isLt).2.2 = k0_pay2 (outsAt0 V c (t.val - 1) (Nat.lt_of_le_of_lt (Nat.sub_le _ _) t.isLt)).2.2 (iblk0 V c 0 t) := by
  rw [outsAt0_B V c t h0 h1]
  dsimp only
  exact sout0_B_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (iblk0 V c 0 t) (outsAt0 V c (t.val - 1) (Nat.lt_of_le_of_lt (Nat.sub_le _ _) t.isLt)).2.2

theorem acc_C (c : Dev nD) (t : Fin cfg0.N) (h0 : ¬t.val % 4 = 0) (h1 : t.val % 4 = 3) :
    (outsAt0 V c t.val t.isLt).2.2 = k0_pay2 (outsAt0 V c (t.val - 1) (Nat.lt_of_le_of_lt (Nat.sub_le _ _) t.isLt)).2.2 (iblk0 V c 0 t) := by
  rw [outsAt0_C V c t h0 h1]
  dsimp only
  exact sout0_C_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (iblk0 V c 0 t) (iblk0 V c 1 t) (iblk0 V c 2 t) (outsAt0 V c (t.val - 1) (Nat.lt_of_le_of_lt (Nat.sub_le _ _) t.isLt)).2.2

theorem out3_C (c : Dev nD) (t : Fin cfg0.N) (h0 : ¬t.val % 4 = 0) (h1 : t.val % 4 = 3) :
    (outsAt0 V c t.val t.isLt).1 = k0_pay3 (k0_pay2 (outsAt0 V c (t.val - 1) (Nat.lt_of_le_of_lt (Nat.sub_le _ _) t.isLt)).2.2 (iblk0 V c 0 t)) := by
  rw [outsAt0_C V c t h0 h1]
  dsimp only
  exact out0_C_3_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (iblk0 V c 0 t) (iblk0 V c 1 t) (iblk0 V c 2 t) (outsAt0 V c (t.val - 1) (Nat.lt_of_le_of_lt (Nat.sub_le _ _) t.isLt)).2.2

theorem out4_C (c : Dev nD) (t : Fin cfg0.N) (h0 : ¬t.val % 4 = 0) (h1 : t.val % 4 = 3) :
    (outsAt0 V c t.val t.isLt).2.1 = k0_pay4 (k0_pay2 (outsAt0 V c (t.val - 1) (Nat.lt_of_le_of_lt (Nat.sub_le _ _) t.isLt)).2.2 (iblk0 V c 0 t)) (iblk0 V c 1 t) (iblk0 V c 2 t) := by
  rw [outsAt0_C V c t h0 h1]
  dsimp only
  exact out0_C_4_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (iblk0 V c 0 t) (iblk0 V c 1 t) (iblk0 V c 2 t) (outsAt0 V c (t.val - 1) (Nat.lt_of_le_of_lt (Nat.sub_le _ _) t.isLt)).2.2

/-! ## The accumulated degree -/

/-- The three input blocks at point `t`, at their literal types. -/
abbrev adjBlk (c : Dev nD) (t : Fin cfg0.N) : Vec Ideal S1024x2048 .f32 := iblk0 V c 0 t
abbrev featBlk (c : Dev nD) (t : Fin cfg0.N) : Vec Ideal S1024x512 .f32 := iblk0 V c 1 t
abbrev wBlk (c : Dev nD) (t : Fin cfg0.N) : Vec Ideal S512x256 .f32 := iblk0 V c 2 t

/-- The degree of node `i` accumulated over runs `0 … k`, from zero. -/
def accUpTo (A : Fin 8192 → Fin 8192 → EReal) (i : Fin 8192) : ℕ → EReal
  | 0 => 0 + ∑ j, A i (Spec.blk 0 j)
  | k + 1 => accUpTo A i k + ∑ j, A i (Spec.blk ⟨(k + 1) % 4, Nat.mod_lt _ (by decide)⟩ j)

theorem accUpTo_three (A : Fin 8192 → Fin 8192 → EReal) (i : Fin 8192) : accUpTo A i 3 = accDeg Spec.blk A i := rfl

/-- The row sum of the adjacency block at point `t`: the sum over the nodes of run `t % 4`. -/
theorem rowsum_blk (c : Dev nD) (t : Fin cfg0.N) (r : Fin 8) (k : Fin 4) (hr : r.val = t.val / 4) (hk : k.val = t.val % 4) (p : Fin 1024) :
    ∑ j : Fin 2048, adjBlk V c t (ix2 p j) = ∑ j : Fin 2048, Spec.adjM (V c main_arg0) (rowOf r p) (Spec.blk k j) :=
  Finset.sum_congr rfl fun j _ => iblk0_0_apply V c t r k hr hk p j

/-- After point `n = 4 r + k` the accumulator holds, at row `p`, the degree of node `1024 r + p` over runs `0 … k`. -/
theorem acc_inv (c : Dev nD) : ∀ (n : ℕ) (hn : n < cfg0.N) (r : Fin 8) (k : Fin 4), r.val = n / 4 → k.val = n % 4 →
    ∀ (p : Fin 1024) (z : Fin 1),
      ((outsAt0 V c n hn).2.2 : Vec Ideal S1024x1 .f32) (ix2 p z) = accUpTo (Spec.adjM (V c main_arg0)) (rowOf r p) k.val := by
  intro n
  induction n using Nat.strong_induction_on with
  | _ n ih =>
    intro hn r k hr hk p z
    by_cases h0 : n % 4 = 0
    · have h1 : ¬n % 4 = 3 := by omega
      have hk0 : k = 0 := Fin.ext (by rw [hk, h0]; rfl)
      subst hk0
      rw [acc_A V c ⟨n, hn⟩ h0 h1]
      refine (Pay.pay0_2 _ _ p z).trans ?_
      rw [Pay.pay0_1]
      exact congrArg (0 + ·) (rowsum_blk V c ⟨n, hn⟩ r 0 hr hk p)
    · have hstep : (outsAt0 V c n hn).2.2 = k0_pay2 (outsAt0 V c (n - 1) (by omega)).2.2 (iblk0 V c 0 ⟨n, hn⟩) := by
        by_cases h1 : n % 4 = 3
        · exact acc_C V c ⟨n, hn⟩ h0 h1
        · exact acc_B V c ⟨n, hn⟩ h0 h1
      rw [hstep]
      refine (Pay.pay0_2 _ _ p z).trans ?_
      have hk1 : 1 ≤ k.val := by omega
      rw [ih (n - 1) (by omega) (by omega) r ⟨k.val - 1, by omega⟩ (by rw [hr]; omega) (by show k.val - 1 = (n - 1) % 4; omega) p z]
      refine (congrArg (accUpTo (Spec.adjM (V c main_arg0)) (rowOf r p) (k.val - 1) + ·) (rowsum_blk V c ⟨n, hn⟩ r k hr hk p)).trans ?_
      match k, hk1 with
      | ⟨1, _⟩, _ => rfl
      | ⟨2, _⟩, _ => rfl
      | ⟨3, _⟩, _ => rfl

/-! ## The two outputs after a last column block, at an index -/

/-- The column written at the last column block of row block `r`: `1 / √(degree + 1)` of node `1024 r + p`. -/
theorem out3_apply (c : Dev nD) (t : Fin cfg0.N) (h1 : t.val % 4 = 3) (r : Fin 8) (hr : r.val = t.val / 4) (p : Fin 1024) (z : Fin 1) :
    ((outsAt0 V c t.val t.isLt).1 : Vec Ideal S1024x1 .f32) (ix2 p z) = kinv Spec.blk (Spec.adjM (V c main_arg0)) (rowOf r p) := by
  have h0 : ¬t.val % 4 = 0 := by omega
  rw [out3_C V c t h0 h1]
  refine (Pay.pay0_3 _ p z).trans ?_
  rw [← acc_C V c t h0 h1, acc_inv V c t.val t.isLt r 3 hr (by rw [h1]; rfl) p z]
  rfl

/-- The rows written at the last column block of row block `r`: the projected features of node `1024 r + p` scaled by
    its `1 / √(degree + 1)`. -/
theorem out4_apply (c : Dev nD) (t : Fin cfg0.N) (h1 : t.val % 4 = 3) (r : Fin 8) (hr : r.val = t.val / 4) (p : Fin 1024) (u : Fin 256) :
    ((outsAt0 V c t.val t.isLt).2.1 : Vec Ideal S1024x256 .bf16) (ix2 p u)
      = kcol Spec.blk (Spec.adjM (V c main_arg0)) (Spec.proj (V c main_arg2) (V c main_arg3) u) (rowOf r p) := by
  have h0 : ¬t.val % 4 = 0 := by omega
  rw [out4_C V c t h0 h1]
  refine (Pay.pay0_4 _ _ _ p u).trans ?_
  have hs : ∑ f : Fin 512, featBlk V c t (ix2 p f) * wBlk V c t (ix2 f u)
      = Spec.proj (V c main_arg2) (V c main_arg3) u (rowOf r p) :=
    Finset.sum_congr rfl fun f _ => congrArg₂ (· * ·) (iblk0_1_apply V c t r hr p f) (iblk0_2_apply V c t f u)
  unfold kcol
  refine congrArg₂ (· * ·) hs ?_
  rw [← acc_C V c t h0 h1, acc_inv V c t.val t.isLt r 3 hr (by rw [h1]; rfl) p 0]
  rfl

/-! ## The write-backs and the arrays after the run -/

/-- What point `t` writes back through window 3 is block `t` of the column of inverse square roots. -/
theorem flushed3_eq (c : Dev nD) (t : Fin cfg0.N) (hf : (cfg0.win 3).flush t = true) :
    (dat0 V c).flushed 3 t = ((cfg0.win 3).blk t).view.read (Elt Ideal) (Spec.dinvG (V c main_arg0)) := by
  have h1 : t.val % 4 = 3 := (flush0_3 t).mp hf
  obtain ⟨-, -, -, -, -, -, e30, e31, e40, e41⟩ := idx_facts t
  have hlt := val_lt t
  show (cfg0.win 3).cut (grid0.coords t) ((dat0 V c).after 3 t) = _
  rw [after0_3]
  funext j
  obtain ⟨p, z, rfl⟩ : ∃ (p : Fin 1024) (z : Fin 1), j = ix2 p z := ⟨j 0, j 1, eq_ix2 j⟩
  rw [View.read_apply]
  refine (out3_apply V c t h1 ⟨t.val / 4, by omega⟩ rfl p z).trans ?_
  have he : (((cfg0.win 3).blk t).view.emb (ix2 p z) : S8192x1.Idx) 0 = rowOf ⟨t.val / 4, by omega⟩ p := Fin.ext (by
    show win0_3.index t (0 : Fin 2) * 1024 + 1 * p.val = 1024 * (t.val / 4) + p.val
    rw [e30]; omega)
  show _ = kinv Spec.blk (Spec.adjM (V c main_arg0)) ((((cfg0.win 3).blk t).view.emb (ix2 p z) : S8192x1.Idx) 0)
  rw [he]

/-- What point `t` writes back through window 4 is block `t` of the scaled projection. -/
theorem flushed4_eq (c : Dev nD) (t : Fin cfg0.N) (hf : (cfg0.win 4).flush t = true) :
    (dat0 V c).flushed 4 t = ((cfg0.win 4).blk t).view.read (Elt Ideal) (Spec.yG (V c main_arg0) (V c main_arg2) (V c main_arg3)) := by
  have h1 : t.val % 4 = 3 := (flush0_4 t).mp hf
  obtain ⟨-, -, -, -, -, -, e30, e31, e40, e41⟩ := idx_facts t
  have hlt := val_lt t
  show (cfg0.win 4).cut (grid0.coords t) ((dat0 V c).after 4 t) = _
  rw [after0_4]
  funext j
  obtain ⟨p, u, rfl⟩ : ∃ (p : Fin 1024) (u : Fin 256), j = ix2 p u := ⟨j 0, j 1, eq_ix2 j⟩
  rw [View.read_apply]
  refine (out4_apply V c t h1 ⟨t.val / 4, by omega⟩ rfl p u).trans ?_
  have he0 : (((cfg0.win 4).blk t).view.emb (ix2 p u) : S8192x256.Idx) 0 = rowOf ⟨t.val / 4, by omega⟩ p := Fin.ext (by
    show win0_4.index t (0 : Fin 2) * 1024 + 1 * p.val = 1024 * (t.val / 4) + p.val
    rw [e40]; omega)
  have he1 : (((cfg0.win 4).blk t).view.emb (ix2 p u) : S8192x256.Idx) 1 = u := Fin.ext (by
    show win0_4.index t (1 : Fin 2) * 256 + 1 * u.val = u.val
    rw [e41]; omega)
  show _ = kcol Spec.blk (Spec.adjM (V c main_arg0)) (Spec.proj (V c main_arg2) (V c main_arg3) ((((cfg0.win 4).blk t).view.emb (ix2 p u) : S8192x256.Idx) 1))
      ((((cfg0.win 4).blk t).view.emb (ix2 p u) : S8192x256.Idx) 0)
  rw [he0, he1]

/-- An index of the column is in point `t`'s block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_0).slice (win0_3.rect t)).set ↔ _
  rw [View.set_slice_whole, Rect.mem_set_unit]
  exact Iff.rfl

theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v0_1).slice (win0_4.rect t)).set ↔ _
  rw [View.set_slice_whole, Rect.mem_set_unit]
  exact Iff.rfl

/-- The last column block of the row block that holds row `n`. -/
def lastOf (n : ℕ) (hn : n < 8192) : Fin cfg0.N := ⟨4 * (n / 1024) + 3, by have e : cfg0.N = 32 := N_0; omega⟩

/-- After the region the first output holds the column of inverse square roots. -/
theorem dinv_final (c : Dev nD) : (dat0 V c).arrAt 3 cfg0.N = Spec.dinvG (V c main_arg0) :=
  (dat0 V c).arrAt_eq_of_cover 3 (Spec.dinvG (V c main_arg0)) (flushed3_eq V c) fun i => by
    have hi0 : (i 0).val < 8192 := idx2_lt0 i
    have hi1 : (i 1).val < 1 := idx2_lt1 i
    refine ⟨lastOf (i 0).val hi0, (flush0_3 _).mpr (by show (4 * ((i 0).val / 1024) + 3) % 4 = 3; omega), ?_⟩
    rw [mem_blk3]
    obtain ⟨-, -, -, -, -, -, e30, e31, -⟩ := idx_facts (lastOf (i 0).val hi0)
    have hv : (lastOf (i 0).val hi0).val = 4 * ((i 0).val / 1024) + 3 := rfl
    intro a
    match a with
    | ⟨0, _⟩ =>
      show win0_3.index (lastOf (i 0).val hi0) (0 : Fin 2) * 1024 ≤ (i 0).val ∧ (i 0).val < win0_3.index (lastOf (i 0).val hi0) (0 : Fin 2) * 1024 + 1024
      rw [e30, hv]; omega
    | ⟨1, _⟩ =>
      show win0_3.index (lastOf (i 0).val hi0) (1 : Fin 2) * 1 ≤ (i 1).val ∧ (i 1).val < win0_3.index (lastOf (i 0).val hi0) (1 : Fin 2) * 1 + 1
      rw [e31]; omega

/-- After the region the second output holds the scaled projection. -/
theorem y_final (c : Dev nD) : (dat0 V c).arrAt 4 cfg0.N = Spec.yG (V c main_arg0) (V c main_arg2) (V c main_arg3) :=
  (dat0 V c).arrAt_eq_of_cover 4 (Spec.yG (V c main_arg0) (V c main_arg2) (V c main_arg3)) (flushed4_eq V c) fun i => by
    have hi0 : (i 0).val < 8192 := idx2_lt0 i
    have hi1 : (i 1).val < 256 := idx2_lt1 i
    refine ⟨lastOf (i 0).val hi0, (flush0_4 _).mpr (by show (4 * ((i 0).val / 1024) + 3) % 4 = 3; omega), ?_⟩
    rw [mem_blk4]
    obtain ⟨-, -, -, -, -, -, -, -, e40, e41⟩ := idx_facts (lastOf (i 0).val hi0)
    have hv : (lastOf (i 0).val hi0).val = 4 * ((i 0).val / 1024) + 3 := rfl
    intro a
    match a with
    | ⟨0, _⟩ =>
      show win0_4.index (lastOf (i 0).val hi0) (0 : Fin 2) * 1024 ≤ (i 0).val ∧ (i 0).val < win0_4.index (lastOf (i 0).val hi0) (0 : Fin 2) * 1024 + 1024
      rw [e40, hv]; omega
    | ⟨1, _⟩ =>
      show win0_4.index (lastOf (i 0).val hi0) (1 : Fin 2) * 256 ≤ (i 1).val ∧ (i 1).val < win0_4.index (lastOf (i 0).val hi0) (1 : Fin 2) * 256 + 256
      rw [e41]; omega

end Cert.KernelIdeal.R0V

end
-- ==== Proof.KI.R1Value.lean ====
import proofs.«145517_j41455024340992_2_alg».proof.Proof.KI.R1Data
import proofs.«145517_j41455024340992_2_alg».proof.Proof.KI.Spec
import proofs.«145517_j41455024340992_2_alg».proof.Proof.KI.Payloads
import proofs.«145517_j41455024340992_2_alg».proof.Proof.KI.Pieces
import Idealize.ShloMosaic.Lib.Pipeline.Value
import Idealize.ShloMosaic.Lib.ValueIdx
import Idealize.ShloMosaic.Lib.Tactic

/-!
# The second region's output array, on the extended reals

The grid is eight row blocks by four column blocks; point `t` is column block `t % 4` of row block `t / 4`. The body is
handed the adjacency block (rows of the row block, columns of the run), the scaled projection's rows of the run, its rows
of the row block and the inverse-square-root column's rows of the row block. The accumulator after point `t` holds, at
`(p, u)`, the products of row `p` of the row block with column `u` of the scaled projection summed run by run from zero
over the runs `0, …, t % 4` (by recursion on the point); at the last column block the output block is that sum plus the
node's own scaled entry, times the node's inverse square root, and it is written back to the row block's rows of the
output array. The row blocks tile the array, so the array ends holding that value at every index.
-/

set_option maxRecDepth 16384

noncomputable section

namespace Cert.KernelIdeal.R1Value

open Idealize.ShloMosaic Idealize.ShloMosaic.TcCoe Idealize.SL.Sem Idealize.ShloMosaic.ValueIdx
open Idealize.ShloMosaic.Pipeline (Dat Cfg Window)
open Cert.KernelIdeal Cert.KernelIdeal.Gen

section R1Value

variable (V : (c : Dev nD) → (b : Ref sig .tc) → Buf (Elt Ideal) ((c : Thread nD τ).loc b))

/-- Node `j` of run `b`, the run's number taken modulo four. -/
def blkN (b : ℕ) (j : Fin 2048) : Fin 8192 := Spec.blk ⟨b % 4, Nat.mod_lt _ (by norm_num)⟩ j

/-- Row `p` of row block `r`. -/
def rowN (r : ℕ) (p : Fin 1024) : Fin 8192 := ⟨(1024 * r + p.val) % 8192, Nat.mod_lt _ (by norm_num)⟩

/-- The printed index maps over the grid: point `t` is column block `t % 4` of row block `t / 4`. -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

theorem N1_eq : cfg1.N = 32 := N_1

/-! ## The blocks the body is handed, at an index -/

/-- The adjacency block of point `t`: rows of row block `t / 4`, columns of run `t % 4`. -/
theorem iblk1_0_apply (c : Dev nD) (t : Fin cfg1.N) (p : Fin 1024) (j : Fin 2048) :
    iblk1 V c 0 t (ix2 p j) = V c main_arg0 (ix2 (rowN (t.val / 4) p) (blkN (t.val % 4) j)) := by
  obtain ⟨e0, e1, -⟩ := idx1 t
  have hN := N1_eq
  have ht := t.isLt
  show V c main_arg0 (((cfg1.win 0).blk t).view.emb (ix2 p j)) = _
  refine congrArg (V c main_arg0) (funext fun a => Fin.ext ?_)
  match a with
  | ⟨0, _⟩ =>
    show win1_0.index t (0 : Fin 2) * 1024 + 1 * p.val = (1024 * (t.val / 4) + p.val) % 8192
    have := p.isLt; omega
  | ⟨1, _⟩ =>
    show win1_0.index t (1 : Fin 2) * 2048 + 1 * j.val = 2048 * (t.val % 4 % 4) + j.val
    omega

/-- The scaled projection's rows of run `t % 4`. -/
theorem iblk1_1_apply (c : Dev nD) (t : Fin cfg1.N) (j : Fin 2048) (u : Fin 256) :
    iblk1 V c 1 t (ix2 j u) = V c main_v0_1 (ix2 (blkN (t.val % 4) j) u) := by
  obtain ⟨-, -, e0, e1, -⟩ := idx1 t
  show V c main_v0_1 (((cfg1.win 1).blk t).view.emb (ix2 j u)) = _
  refine congrArg (V c main_v0_1) (funext fun a => Fin.ext ?_)
  match a with
  | ⟨0, _⟩ =>
    show win1_1.index t (0 : Fin 2) * 2048 + 1 * j.val = 2048 * (t.val % 4 % 4) + j.val
    omega
  | ⟨1, _⟩ =>
    show win1_1.index t (1 : Fin 2) * 256 + 1 * u.val = u.val
    omega

/-- The scaled projection's rows of row block `t / 4`. -/
theorem iblk1_2_apply (c : Dev nD) (t : Fin cfg1.N) (p : Fin 1024) (u : Fin 256) :
    iblk1 V c 2 t (ix2 p u) = V c main_v0_1 (ix2 (rowN (t.val / 4) p) u) := by
  obtain ⟨-, -, -, -, e0, e1, -⟩ := idx1 t
  have hN := N1_eq
  have ht := t.isLt
  show V c main_v0_1 (((cfg1.win 2).blk t).view.emb (ix2 p u)) = _
  refine congrArg (V c main_v0_1) (funext fun a => Fin.ext ?_)
  match a with
  | ⟨0, _⟩ =>
    show win1_2.index t (0 : Fin 2) * 1024 + 1 * p.val = (1024 * (t.val / 4) + p.val) % 8192
    have := p.isLt; omega
  | ⟨1, _⟩ =>
    show win1_2.index t (1 : Fin 2) * 256 + 1 * u.val = u.val
    omega

/-- The inverse-square-root column's rows of row block `t / 4`. -/
theorem iblk1_3_apply (c : Dev nD) (t : Fin cfg1.N) (p : Fin 1024) (z : Fin 1) :
    iblk1 V c 3 t (ix2 p z) = V c main_v0_0 (ix2 (rowN (t.val / 4) p) z) := by
  obtain ⟨-, -, -, -, -, -, e0, e1, -⟩ := idx1 t
  have hN := N1_eq
  have ht := t.isLt
  show V c main_v0_0 (((cfg1.win 3).blk t).view.emb (ix2 p z)) = _
  refine congrArg (V c main_v0_0) (funext fun a => Fin.ext ?_)
  match a with
  | ⟨0, _⟩ =>
    show win1_3.index t (0 : Fin 2) * 1024 + 1 * p.val = (1024 * (t.val / 4) + p.val) % 8192
    have := p.isLt; omega
  | ⟨1, _⟩ =>
    show win1_3.index t (1 : Fin 2) * 1 + 1 * z.val = z.val
    omega

/-! ## The accumulator, point by point -/

/-- Row `i` of `A` against column `u` of `y`, over run `b`. -/
def runAt (A : S8192x8192.Idx → EReal) (y : S8192x256.Idx → EReal) (i : Fin 8192) (u : Fin 256) (b : ℕ) : EReal :=
  ∑ j : Fin 2048, A (ix2 i (blkN b j)) * y (ix2 (blkN b j) u)

/-- … accumulated from zero over the runs `0, …, k` in order. -/
def part (A : S8192x8192.Idx → EReal) (y : S8192x256.Idx → EReal) (i : Fin 8192) (u : Fin 256) : ℕ → EReal
  | 0 => 0 + runAt A y i u 0
  | k + 1 => part A y i u k + runAt A y i u (k + 1)

/-- Row `p` of an adjacency block against column `u` of a scaled-projection block. -/
def dotAt (x0 : Vec Ideal S1024x2048 .f32) (x1 : Vec Ideal S2048x256 .bf16) (p : Fin 1024) (u : Fin 256) : EReal :=
  ∑ j : Fin 2048, x0 (ix2 p j) * x1 (ix2 j u)

/-- The product of the two blocks handed at point `t`, at `(p, u)`: row `p` of row block `t / 4` against column `u`, over run `t % 4`. -/
theorem step_sum (c : Dev nD) (t : Fin cfg1.N) (p : Fin 1024) (u : Fin 256) :
    dotAt (iblk1 V c 0 t) (iblk1 V c 1 t) p u
      = runAt (V c main_arg0) (V c main_v0_1) (rowN (t.val / 4) p) u (t.val % 4) := by
  unfold dotAt runAt
  refine Finset.sum_congr rfl fun j _ => ?_
  rw [iblk1_0_apply, iblk1_1_apply]

/-- At a first column block the accumulator is zeroed and gains run 0. -/
theorem acc_A (c : Dev nD) (t : Fin cfg1.N) (h0 : t.val % 4 = 0) (p : Fin 1024) (u : Fin 256) :
    (outsAt1 V c t.val t.isLt).2 (ix2 p u) = part (V c main_arg0) (V c main_v0_1) (rowN (t.val / 4) p) u (t.val % 4) := by
  have h1 : ¬ t.val % 4 = 3 := by omega
  rw [outsAt1_A V c t h0 h1]
  dsimp only
  rw [sout1_A_eq, Pay.pay1_2, Pay.pay1_1]
  show (0 : EReal) + dotAt (iblk1 V c 0 t) (iblk1 V c 1 t) p u = _
  rw [step_sum, h0]
  rfl

/-- After point `n` the accumulator holds, at `(p, u)`, the sum over the runs `0, …, n % 4` of row `p` of row block
    `n / 4` against column `u` of the scaled projection. -/
theorem acc_eq (c : Dev nD) : ∀ (n : ℕ) (hn : n < cfg1.N) (p : Fin 1024) (u : Fin 256),
    (outsAt1 V c n hn).2 (ix2 p u) = part (V c main_arg0) (V c main_v0_1) (rowN (n / 4) p) u (n % 4)
  | 0, hn, p, u => acc_A V c ⟨0, hn⟩ (Nat.zero_mod _) p u
  | n + 1, hn, p, u => by
    by_cases h0 : (n + 1) % 4 = 0
    · exact acc_A V c ⟨n + 1, hn⟩ h0 p u
    · have ih := acc_eq c n (Nat.lt_of_succ_lt hn) p u
      have e1 : (n + 1) % 4 = n % 4 + 1 := by omega
      have e2 : (n + 1) / 4 = n / 4 := by omega
      by_cases h1 : (n + 1) % 4 = 3
      · rw [outsAt1_C V c ⟨n + 1, hn⟩ h0 h1]
        dsimp only
        rw [sout1_C_eq, Pay.pay1_2]
        show (outsAt1 V c n _).2 (ix2 p u) + dotAt (iblk1 V c 0 ⟨n + 1, hn⟩) (iblk1 V c 1 ⟨n + 1, hn⟩) p u = _
        rw [ih, step_sum]
        dsimp only
        rw [e1, e2]
        rfl
      · rw [outsAt1_B V c ⟨n + 1, hn⟩ h0 h1]
        dsimp only
        rw [sout1_B_eq, Pay.pay1_2]
        show (outsAt1 V c n _).2 (ix2 p u) + dotAt (iblk1 V c 0 ⟨n + 1, hn⟩) (iblk1 V c 1 ⟨n + 1, hn⟩) p u = _
        rw [ih, step_sum]
        dsimp only
        rw [e1, e2]
        rfl

/-! ## The output block at a last column block -/

/-- What the second region leaves at row `i`, column `u`: the four runs accumulated in order, plus the node's own
    scaled entry, scaled by the node's inverse square root. -/
def outAt (A : S8192x8192.Idx → EReal) (y : S8192x256.Idx → EReal) (d : S8192x1.Idx → EReal) (i : Fin 8192) (u : Fin 256) : EReal :=
  (part A y i u 3 + y (ix2 i u)) * d (ix2 i (0 : Fin 1))

/-- The output store's value at `(p, u)`, of the blocks it is computed from. -/
theorem out_val (x0 : Vec Ideal S1024x2048 .f32) (x1 : Vec Ideal S2048x256 .bf16) (x2 : Vec Ideal S1024x256 .bf16)
    (x3 : Vec Ideal S1024x1 .f32) (xs0 : Vec Ideal S1024x256 .f32) (p : Fin 1024) (u : Fin 256) :
    k1_pay3 (k1_pay2 x0 xs0 x1) x2 x3 (ix2 p u) = ((xs0 (ix2 p u) + dotAt x0 x1 p u) + x2 (ix2 p u)) * x3 (ix2 p 0) := by
  rw [Pay.pay1_3, Pay.pay1_2]
  rfl

/-- At a last column block the output block holds, at `(p, u)`, the second region's value at row `p` of row block `t / 4`. -/
theorem out_C (c : Dev nD) (t : Fin cfg1.N) (h1 : t.val % 4 = 3) (p : Fin 1024) (u : Fin 256) :
    (outsAt1 V c t.val t.isLt).1 (ix2 p u)
      = outAt (V c main_arg0) (V c main_v0_1) (V c main_v0_0) (rowN (t.val / 4) p) u := by
  have h0 : ¬ t.val % 4 = 0 := by omega
  have ih := acc_eq V c (t.val - 1) (Nat.lt_of_le_of_lt (Nat.sub_le _ _) t.isLt) p u
  have e1 : (t.val - 1) % 4 = 2 := by omega
  have e2 : (t.val - 1) / 4 = t.val / 4 := by omega
  rw [outsAt1_C V c t h0 h1]
  dsimp only
  rw [out1_C_4_eq, out_val, step_sum, iblk1_2_apply, iblk1_3_apply, ih, e1, e2, h1]
  rfl

/-- Runs 0 to 3 are the four runs. -/
theorem outAt_eq (A : S8192x8192.Idx → EReal) (y : S8192x256.Idx → EReal) (d : S8192x1.Idx → EReal) (i : Fin 8192) (u : Fin 256) :
    outAt A y d i u = Spec.out1G A y d (ix2 i u) := rfl

/-! ## From the blocks to the array -/

/-- What a last column block's point writes back is its block of the second region's value. -/
theorem flushed_eq (c : Dev nD) (t : Fin cfg1.N) (hf : (cfg1.win 4).flush t = true) :
    (dat1 V c).flushed 4 t
      = ((cfg1.win 4).blk t).view.read (Elt Ideal) (Spec.out1G (V c main_arg0) (V c main_v0_1) (V c main_v0_0)) := by
  have h1 : t.val % 4 = 3 := (flush1_4 t).mp hf
  obtain ⟨-, -, -, -, -, -, -, -, e0, e1⟩ := idx1 t
  have hN := N1_eq
  have ht := t.isLt
  show (cfg1.win 4).cut (grid1.coords t) ((dat1 V c).after 4 t) = _
  rw [after1_4]
  funext x
  obtain ⟨p, u, rfl⟩ : ∃ (p : Fin 1024) (u : Fin 256), x = ix2 p u := ⟨x 0, x 1, eq_ix2 x⟩
  show (outsAt1 V c t.val t.isLt).1 (ix2 p u) = Spec.out1G (V c main_arg0) (V c main_v0_1) (V c main_v0_0) (((cfg1.win 4).blk t).view.emb (ix2 p u))
  rw [out_C V c t h1, outAt_eq]
  refine congrArg (Spec.out1G (V c main_arg0) (V c main_v0_1) (V c main_v0_0)) (funext fun a => Fin.ext ?_)
  match a with
  | ⟨0, _⟩ =>
    show (1024 * (t.val / 4) + p.val) % 8192 = win1_4.index t (0 : Fin 2) * 1024 + 1 * p.val
    have := p.isLt; omega
  | ⟨1, _⟩ =>
    show u.val = win1_4.index t (1 : Fin 2) * 256 + 1 * u.val
    omega

/-- An index of the output array is in point `t`'s block iff each coordinate is in the block's range on its axis. -/
theorem mem_blk4 (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v1).slice (win1_4.rect t)).set ↔ _
  rw [View.set_slice_whole, Rect.mem_set_unit]
  exact Iff.rfl

/-- Row `i` is written back by the last column block's point of its row block. -/
theorem cover4 (i : S8192x256.Idx) : ∃ t : Fin cfg1.N, (cfg1.win 4).flush t = true ∧ i ∈ ((cfg1.win 4).blk t).view.set := by
  have h0 : (i 0).val < 8192 := (i 0).isLt
  have h1 : (i 1).val < 256 := (i 1).isLt
  have hN := N1_eq
  let t : Fin cfg1.N := ⟨4 * ((i 0).val / 1024) + 3, by omega⟩
  have tv : t.val = 4 * ((i 0).val / 1024) + 3 := rfl
  obtain ⟨-, -, -, -, -, -, -, -, e0, e1⟩ := idx1 t
  refine ⟨t, (flush1_4 t).mpr (by omega), ?_⟩
  rw [mem_blk4]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 256 ≤ (i 1).val ∧ (i 1).val < win1_4.index t (1 : Fin 2) * 256 + 256
    omega

/-- After the second region its output array holds, at every index, the four runs accumulated in order, plus the node's
    own scaled entry, scaled by the node's inverse square root — of the arrays the region finds. -/
theorem out_final (c : Dev nD) :
    (dat1 V c).arrAt 4 cfg1.N = Spec.out1G (V c main_arg0) (V c main_v0_1) (V c main_v0_0) :=
  (dat1 V c).arrAt_eq_of_cover 4 (Spec.out1G (V c main_arg0) (V c main_v0_1) (V c main_v0_0)) (flushed_eq V c) cover4

end R1Value

end Cert.KernelIdeal.R1Value

end
-- ==== Proof.PreFacts.lean ====
import proofs.«145517_j41455024340992_2_alg».proof.Pre_finite_inputs
import proofs.«145517_j41455024340992_2_alg».proof.Proof.Gen.Pre_finite_inputs
import proofs.«145517_j41455024340992_2_alg».proof.Proof.LibGcnLaw
import Idealize.ShloMosaic.Lib.ValueIdx
import Idealize.ShloMosaic.Lib.ReduceAll
import Idealize.ShloMosaic.PureOps.Ideal.Laws

/-!
# The precondition, read at the extended reals

The predicate is a conjunction of five statements "every element of an array of truth values is 1": four say that an
input's entries have absolute value strictly below `+∞`, the fifth that every row sum of the adjacency plus the identity
matrix, taken from 0, is strictly above 0. On the extended reals `max x (-x) < ⊤` holds exactly for the real numbers, so
the first four say that every entry is real; the identity's entry, the comparison of the row number with the column number
read as a number, is `1` on the diagonal and `0` off it.
-/

noncomputable section

namespace Cert.PreFacts

open Idealize.ShloMosaic Cert.Pre_finite_inputs

instance : Subsingleton S_.Idx := ⟨fun a b => funext fun d => d.elim0⟩

/-- An extended real whose absolute value `max x (-x)` lies strictly below the pattern of `+∞` is a real number. -/
theorem real_of_abs_lt_inf (x : EReal)
    (h : Ideal.cmp .olt (max x (-x)) (Ideal.ofBits .f32 0x7F800000#32) = 1#1) : ∃ a : ℝ, x = (a : EReal) := by
  have hinf : Ideal.ofBits .f32 0x7F800000#32 = (⊤ : EReal) := by
    simp [Ideal.ofBits, Ideal.ieee]
  rw [hinf] at h
  induction x using EReal.rec with
  | bot => simp [Ideal.cmp] at h
  | coe a => exact ⟨a, rfl⟩
  | top => simp [Ideal.cmp] at h

/-- A comparison "greater than" that came out 1 is the strict order. -/
theorem lt_of_ogt (x y : EReal) (h : Ideal.cmp .ogt x y = 1#1) : y < x := by
  by_contra hn
  simp [Ideal.cmp, hn] at h

/-- The predicate's five conjuncts, each still a reduction by `and` that came out 1. -/
theorem split [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) :
    (Host.reduce IntOp.andi
        (cmpf .olt (Host.absf A) (broadcastInDim S8192x8192 ![] Facts.bcast_S_S8192x8192 (constant S_ .f32 0x7F800000#32)))
        (constantI S_ 1 1#1) Facts.reducesTo_S8192x8192_S_d0_1 Facts.h_S_ ValueIdx.ix0 = 1#1) ∧
    (Host.reduce IntOp.andi
        (cmpf .olt (Host.absf X) (broadcastInDim S8192x512 ![] Facts.bcast_S_S8192x512 (constant S_ .f32 0x7F800000#32)))
        (constantI S_ 1 1#1) Facts.reducesTo_S8192x512_S_d0_1 Facts.h_S_ ValueIdx.ix0 = 1#1) ∧
    (Host.reduce IntOp.andi
        (cmpf .olt (Host.absf W) (broadcastInDim S512x256 ![] Facts.bcast_S_S512x256 (constant S_ .f32 0x7F800000#32)))
        (constantI S_ 1 1#1) Facts.reducesTo_S512x256_S_d0_1 Facts.h_S_ ValueIdx.ix0 = 1#1) ∧
    (Host.reduce IntOp.andi
        (cmpf .olt (Host.absf b) (broadcastInDim S256 ![] Facts.bcast_S_S256 (constant S_ .f32 0x7F800000#32)))
        (constantI S_ 1 1#1) Facts.reducesTo_S256_S_d0 Facts.h_S_ ValueIdx.ix0 = 1#1) ∧
    (Host.reduce IntOp.andi
        (cmpf .ogt
          (Host.reduceAdd
            (addf A
              (uitofp .f32
                (cmpi .eq
                  (addi (iotaInDim S8192x8192 32 0) (broadcastInDim S8192x8192 ![] Facts.bcast_S_S8192x8192 (constantI S_ 32 0#32)))
                  (iotaInDim S8192x8192 32 1))))
            (constant S_ .f32 0x00000000#32) Facts.reducesTo_S8192x8192_S8192_d1 Facts.h_S_)
          (broadcastInDim S8192 ![] Facts.bcast_S_S8192 (constant S_ .f32 0x00000000#32)))
        (constantI S_ 1 1#1) Facts.reducesTo_S8192_S_d0 Facts.h_S_ ValueIdx.ix0 = 1#1) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨h1, h2, h3, h4, h5⟩

/-- Every adjacency entry is real. -/
theorem adj_real [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) (j : S8192x8192.Idx) : ∃ a : ℝ, A j = (a : EReal) :=
  real_of_abs_lt_inf (A j) (Host.reduce_andi_all _ _ _ _ _ (split A idx X W b h).1 j)

/-- Every feature entry is real. -/
theorem feat_real [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) (j : S8192x512.Idx) : ∃ a : ℝ, X j = (a : EReal) :=
  real_of_abs_lt_inf (X j) (Host.reduce_andi_all _ _ _ _ _ (split A idx X W b h).2.1 j)

/-- Every weight entry is real. -/
theorem kern_real [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) (j : S512x256.Idx) : ∃ a : ℝ, W j = (a : EReal) :=
  real_of_abs_lt_inf (W j) (Host.reduce_andi_all _ _ _ _ _ (split A idx X W b h).2.2.1 j)

/-- Every bias entry is real. -/
theorem bias_real [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) (j : S256.Idx) : ∃ a : ℝ, b j = (a : EReal) :=
  real_of_abs_lt_inf (b j) (Host.reduce_andi_all _ _ _ _ _ (split A idx X W b h).2.2.2.1 j)

/-- The identity matrix's entry as the program spells it: the comparison of the row number (plus a zero word) with
    the column number, both below `2 ^ 32`, read as a float. -/
theorem eye_entry (i k : Fin 8192) :
    (FloatOps.uitofp (F := Ideal) .f32
        (IntOp.cmpi .eq (IntOp.addi (BitVec.ofNat 32 i.val) 0#32) (BitVec.ofNat 32 k.val)) : EReal)
      = Cert.GcnLaw.eye i k := by
  unfold Cert.GcnLaw.eye
  have hw : IntOp.cmpi .eq (IntOp.addi (BitVec.ofNat 32 i.val) 0#32) (BitVec.ofNat 32 k.val)
      = if i = k then 1#1 else 0#1 := by
    simp only [IntOp.cmpi, IntOp.addi, BitVec.add_zero]
    by_cases hik : i = k
    · subst hik; simp
    · have hne : ¬ (BitVec.ofNat 32 i.val = BitVec.ofNat 32 k.val) := by
        intro e
        have e' := congrArg BitVec.toNat e
        simp only [BitVec.toNat_ofNat] at e'
        apply hik; apply Fin.ext; have := i.isLt; have := k.isLt; omega
      have hb : (BitVec.ofNat 32 i.val == BitVec.ofNat 32 k.val) = false := by simpa using hne
      rw [if_neg hik, hb]; rfl
  rw [hw]
  show (((if i = k then 1#1 else 0#1 : BitVec 1).toNat : ℝ) : EReal) = _
  split <;> simp

/-- The index a sum along axis 1 inserts over row `i` at column `k` is `(i, k)`. -/
theorem lift_eq (hR : S8192x8192.Reduces [1] S8192) (i k : Fin 8192) :
    hR.lift (ValueIdx.ix1 i) k = ValueIdx.ix2 i k := by
  funext c
  match c with
  | ⟨0, _⟩ => exact Fin.ext rfl
  | ⟨1, _⟩ => exact Fin.ext rfl

/-- Every row sum of the adjacency plus the identity is positive. -/
theorem rowsum_pos [Facts] (A : FVec Ideal S8192x8192 .f32) (idx : IVec S4096x1 32) (X : FVec Ideal S8192x512 .f32)
    (W : FVec Ideal S512x256 .f32) (b : FVec Ideal S256 .f32)
    (h : fn (F := Ideal) A idx X W b = fun _ => 1#1) (i : Fin 8192) :
    0 < 0 + ∑ k : Fin 8192, (A (ValueIdx.ix2 i k) + Cert.GcnLaw.eye i k) := by
  have e := Host.reduce_andi_all _ _ _ _ _ (split A idx X W b h).2.2.2.2 (ValueIdx.ix1 i)
  have hR : S8192x8192.Reduces [1] S8192 := by decide
  have hz : Ideal.ofBits .f32 0x00000000#32 = (0 : EReal) := by
    simp [Ideal.ofBits, Ideal.ieee]
  have e2 := lt_of_ogt _ _ e
  have e3 : Ideal.ofBits .f32 0x00000000#32
      < Ideal.hostReduceAdd Facts.reducesTo_S8192x8192_S8192_d1 _ (Ideal.ofBits .f32 0x00000000#32) (ValueIdx.ix1 i) := e2
  rw [Ideal.hostReduceAdd_single _ hR, hz] at e3
  refine lt_of_lt_of_eq e3 (congrArg (0 + ·) (Finset.sum_congr rfl fun (k : Fin 8192) _ => ?_))
  exact (congrArg (addf A _) (lift_eq hR i k)).trans (congrArg (A (ValueIdx.ix2 i k) + ·) (eye_entry i k))

/-- The precondition gives: every adjacency, feature, weight and bias entry is real, and every row sum of the adjacency
    plus the identity is positive. -/
theorem pre_facts [Cert.Pre_finite_inputs.Facts] (A : FVec Ideal Cert.Pre_finite_inputs.S8192x8192 .f32)
    (idx : IVec Cert.Pre_finite_inputs.S4096x1 32) (X : FVec Ideal Cert.Pre_finite_inputs.S8192x512 .f32)
    (W : FVec Ideal Cert.Pre_finite_inputs.S512x256 .f32) (b : FVec Ideal Cert.Pre_finite_inputs.S256 .f32)
    (h : Cert.Pre_finite_inputs.fn (F := Ideal) A idx X W b = fun _ => 1#1) :
    (∀ j, ∃ a : ℝ, A j = (a : EReal)) ∧ (∀ j, ∃ a : ℝ, X j = (a : EReal)) ∧ (∀ j, ∃ a : ℝ, W j = (a : EReal)) ∧
      (∀ j, ∃ a : ℝ, b j = (a : EReal)) ∧
      (∀ i : Fin 8192, 0 < 0 + ∑ k : Fin 8192, (A (ValueIdx.ix2 i k) + Cert.GcnLaw.eye i k)) :=
  ⟨adj_real A idx X W b h, feat_real A idx X W b h, kern_real A idx X W b h, bias_real A idx X W b h,
    rowsum_pos A idx X W b h⟩

end Cert.PreFacts

end
-- ==== Proof.KI.Final.lean ====
import proofs.«145517_j41455024340992_2_alg».proof.Defs
import proofs.«145517_j41455024340992_2_alg».proof.Proof.KI.Run
import proofs.«145517_j41455024340992_2_alg».proof.Proof.KI.Tail
import proofs.«145517_j41455024340992_2_alg».proof.Proof.KI.R0Value
import proofs.«145517_j41455024340992_2_alg».proof.Proof.KI.R1Value
import proofs.«145517_j41455024340992_2_alg».proof.Proof.RefValue
import proofs.«145517_j41455024340992_2_alg».proof.Proof.PreFacts

/-!
# The kernel program's result, and its agreement with the reference

The second region's output array is the layer's rows `outG` of the argument arrays: region 0 leaves the inverse square
roots and the scaled projection, region 1 run on them leaves `out1G` of them, and the composition is `outG`. The host
tail (gather through the normalised indices, bias, rectification) is the reference's own. Where every float input is
finite and every row sum of `A + I` is positive, `outG` is the reference's `D^{-1/2} (A + I) D^{-1/2} X W` row by row:
the law of the two arrangements on the extended reals.
-/

noncomputable section

namespace Cert.KernelIdeal.Final

open Idealize.ShloMosaic Idealize.ShloMosaic.TcCoe Idealize.SL.Sem Cert.KernelIdeal Cert.KernelIdeal.Gen Cert.KernelIdeal.R0V Cert.KernelIdeal.R1Value

variable (m : (ℓ : Loc nD τ sig) → Buf (Elt Ideal) ℓ)

/-- After region 1 its output array holds the layer's rows of the argument arrays. -/
theorem out_full (c : Dev nD) :
    W2 m c (Proc.devRef .tc main_v1)
      = Spec.outG (m ((c : Thread nD τ).loc main_arg0)) (m ((c : Thread nD τ).loc main_arg2)) (m ((c : Thread nD τ).loc main_arg3)) := by
  rw [show W2 m c (Proc.devRef .tc main_v1) = V2r m c main_v1 from rfl, W2_v1 m c, out_final (V1r m) c]
  rw [show V1r m c main_arg0 = m ((c : Thread nD τ).loc main_arg0) from W1_arg0 m c,
    show V1r m c main_v0_1 = _ from (W1_arr m c 4).trans (y_final (V0r m) c),
    show V1r m c main_v0_0 = _ from (W1_arr m c 3).trans (dinv_final (V0r m) c)]
  exact Spec.out1G_comp _ _ _

/-- The program's result: the host tail of the layer's rows. -/
theorem result (c : Dev nD) :
    W4 m c (Proc.devRef .tc main_v13)
      = Cert.RefValue.refTail (Spec.outG (m ((c : Thread nD τ).loc main_arg0)) (m ((c : Thread nD τ).loc main_arg2)) (m ((c : Thread nD τ).loc main_arg3)))
          (m ((c : Thread nD τ).loc main_arg1)) (m ((c : Thread nD τ).loc main_arg4)) := by
  rw [show W4 m c = StableHlo.after (hostOps2_1 (F := Ideal)) (StableHlo.after (hostOps2 (F := Ideal)) (W2 m c)) from rfl,
    Cert.KernelIdeal.Tail.tail_read (W2 m c), out_full m c]
  rw [show W2 m c (Proc.devRef .tc main_arg1) = m ((c : Thread nD τ).loc main_arg1) from (W2_of_ne m c main_arg1 (by decide)).trans (W1_arg1 m c),
    show W2 m c (Proc.devRef .tc main_arg4) = m ((c : Thread nD τ).loc main_arg4) from (W2_of_ne m c main_arg4 (by decide)).trans (W1_arg4 m c)]

/-- The idealized kernel program's run with its result named. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v13)
        = Cert.RefValue.refTail (Spec.outG (m ((c : Thread nD τ).loc main_arg0)) (m ((c : Thread nD τ).loc main_arg2)) (m ((c : Thread nD τ).loc main_arg3)))
            (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v13 (by decide))).trans (result m c),
     (h c _ (mem_uc main_arg0 (by decide))).trans (W4_arg0 m c), (h c _ (mem_uc main_arg1 (by decide))).trans (W4_arg1 m c),
     (h c _ (mem_uc main_arg2 (by decide))).trans (W4_arg2 m c), (h c _ (mem_uc main_arg3 (by decide))).trans (W4_arg3 m c),
     (h c _ (mem_uc main_arg4 (by decide))).trans (W4_arg4 m c)⟩) (run_all (F := Ideal) m ρ)

/-- Under the precondition the layer's rows are the reference's, row by row. -/
theorem core_eq (A : FVec Ideal S8192x8192 .f32) (idx : IVec S4096x1 32) (X : FVec Ideal S8192x512 .f32) (W : FVec Ideal S512x256 .f32)
    (b : FVec Ideal S256 .f32) (hpre : Cert.Pre_finite_inputs.fn (F := Ideal) A idx X W b = fun _ => 1#1) :
    Cert.RefValue.refCore A X W = Spec.outG A X W := by
  obtain ⟨hA, hX, hW, -, hpos⟩ := Cert.PreFacts.pre_facts A idx X W b hpre
  funext j
  obtain ⟨i, u, rfl⟩ : ∃ (i : Fin 8192) (u : Fin 256), j = ValueIdx.ix2 i u := ⟨j 0, j 1, ValueIdx.eq_ix2 j⟩
  rw [Cert.RefValue.refCore_apply]
  exact (Cert.GcnLaw.krow_eq_rrow Spec.blk Spec.blk_bij (Spec.adjM A) (Spec.proj X W u) (fun i k => hA _)
    (fun k => Cert.GcnLaw.sum_mul_finite _ _ (fun f => hX _) (fun f => hW _)) hpos i).symm

/-- At `Ideal`, from memories agreeing on the arguments, both programs end with the host tail of the same rows. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2.1, (hagree c).2.2.2.2]
  rw [core_eq _ _ _ _ _ (hpre c)]

end Cert.KernelIdeal.Final

end
-- ==== Proof.lean ====
/- The proof of `Cert.Claim`: a normalised graph-convolution layer — the degree's inverse square root, the features
   projected and scaled, the adjacency applied block by block, a row gather, a bias and a rectification — computed by two
   kernel regions and a host tail, against `D^{-1/2} (A + I) D^{-1/2} X W` gathered, biased and rectified on the host.
   The three programs run to the end, faulting nowhere and leaving their arguments unchanged (the kernel programs by the
   regions' launch over each region's body taken grid point by grid point, at any float instance; the reference by its
   run read back); the idealization rewrote nothing; and at the ideal instance, where every float input is finite and
   every row sum of `A + I` is positive, the two results are one function of the arguments. -/
import proofs.«145517_j41455024340992_2_alg».proof.Defs
import proofs.«145517_j41455024340992_2_alg».proof.Proof.Gen.Kernel
import proofs.«145517_j41455024340992_2_alg».proof.Proof.Gen.KernelIdeal
import proofs.«145517_j41455024340992_2_alg».proof.Proof.Gen.ReferenceIdeal
import proofs.«145517_j41455024340992_2_alg».proof.Proof.Gen.Pre_finite_inputs
import proofs.«145517_j41455024340992_2_alg».proof.Proof.K.Run
import proofs.«145517_j41455024340992_2_alg».proof.Proof.KI.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame_all (F := Bits) m ρ
theorem frame_ki : Cert.frame_KernelIdeal := fun m ρ _ => Cert.KernelIdeal.Gen.frame_all (F := Ideal) m ρ
theorem frame_ri : Cert.frame_ReferenceIdeal := fun m ρ _ =>
  (θ_run Cert.ReferenceIdeal.defs _ _).mono (fun _ h c => (h c).2) (Cert.RefValue.ref_run m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Final.algebraic⟩

end Cert.Proof

end
